-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128x16 .f32) (main_arg6 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x16 .f32 := Host.absf main_arg5
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S50000x256 .f32) (main_arg1 : IVec S2x800000 32) (main_arg2 : FVec F S800000 .f32) (main_arg3 : FVec F S256x128 .f32) (main_arg4 : FVec F S128 .f32) (main_arg5 : FVec F S128x16 .f32) (main_arg6 : FVec F S16 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S5000x256 : Shape := ⟨2, ![5000, 256]⟩
abbrev S5000x128 : Shape := ⟨2, ![5000, 128]⟩
abbrev S800000x128 : Shape := ⟨2, ![800000, 128]⟩
abbrev S1x128 : Shape := ⟨2, ![1, 128]⟩
abbrev S50000x16 : Shape := ⟨2, ![50000, 16]⟩
abbrev S5000x16 : Shape := ⟨2, ![5000, 16]⟩
abbrev S800000x16 : Shape := ⟨2, ![800000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 101
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S800000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000, .f32⟩
  | .hbm, ⟨43, _⟩ => ⟨S800000, .f32⟩
  | .hbm, ⟨44, _⟩ => ⟨S800000x1, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x128, .f32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x16, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000, .f32⟩
  | .hbm, ⟨72, _⟩ => ⟨S800000, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000, .f32⟩
  | .hbm, ⟨82, _⟩ => ⟨S800000, .f32⟩
  | .hbm, ⟨83, _⟩ => ⟨S800000x1, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x16, .f32⟩
  | .hbm, ⟨93, _⟩ => ⟨S800000x16, .f32⟩
  | .hbm, ⟨94, _⟩ => ⟨S800000x16, .f32⟩
  | .hbm, ⟨95, _⟩ => ⟨S_, .f32⟩
  | .hbm, ⟨96, _⟩ => ⟨S50000x16, .f32⟩
  | .hbm, ⟨97, _⟩ => ⟨S800000x1, .i32⟩
  | .hbm, ⟨98, _⟩ => ⟨S50000x16, .f32⟩
  | .hbm, ⟨99, _⟩ => ⟨S1x16, .f32⟩
  | .hbm, ⟨100, _⟩ => ⟨S50000x16, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S1x16, .f32⟩
  | .local _ .vmem, ⟨18, _⟩ => ⟨S5000x16, .f32⟩
  | .local _ .vmem, ⟨19, _⟩ => ⟨S5000x16, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_12 : Ref sig .tc := ⟨.hbm, 84, rfl⟩
abbrev main_v61 : Ref sig .tc := ⟨.hbm, 85, rfl⟩
abbrev main_v62 : Ref sig .tc := ⟨.hbm, 86, rfl⟩
abbrev main_c_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  scatter_S50000_S800000x1_S800000_n_0_0_1_wf : ScatterDims.WF S50000 S800000x1 S800000 [] [0] [0] 1
  dot_S5000x256_S256x128_S5000x128_1_0_0_1_n_n_wf : DotDims.WF S5000x256 S256x128 S5000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x16_S5000x16_1_0_0_1_n_n_wf : DotDims.WF S5000x128 S128x16 S5000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S50000x16.size a
  hwx2_2 : ∀ i : grid2.Coords, EltTy.bits .f32 = 32 ∨ (Rect.block (s := S50000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S50000x16.size a
  hwx3_0 : ∀ i : grid3.Coords, EltTy.bits .f32 = 32 ∨ (Rect.block (s := S50000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S50000x16.size a
  hwx3_2 : ∀ i : grid3.Coords, EltTy.bits .f32 = 32 ∨ (Rect.block (s := S50000x16) S5000x16.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S50000x16 : Shape := ⟨2, ![50000, 16]⟩
abbrev S800000x16 : Shape := ⟨2, ![800000, 16]⟩
abbrev S1x16 : Shape := ⟨2, ![1, 16]⟩
abbrev S50000x1 : Shape := ⟨2, ![50000, 1]⟩

abbrev nBuf : Space → Nat
  | .hbm => 133
  | .vmem => 0
  | .smem => 0
  | _ => 0

abbrev hbmTy0_0 (i : Nat) : BufTy := match i % 128 with
  | 0 => ⟨S50000x256, .f32⟩
  | 1 => ⟨S2x800000, .i32⟩
  | 2 => ⟨S800000, .f32⟩
  | 3 => ⟨S256x128, .f32⟩
  | 4 => ⟨S128, .f32⟩
  | 5 => ⟨S128x16, .f32⟩
  | 6 => ⟨S16, .f32⟩
  | 7 => ⟨S1x800000, .i32⟩
  | 8 => ⟨S800000, .i32⟩
  | 9 => ⟨S1x800000, .i32⟩
  | 10 => ⟨S800000, .i32⟩
  | 11 => ⟨S50000x128, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .i1⟩
  | 19 => ⟨S50000, .f32⟩
  | 20 => ⟨S_, .f32⟩
  | 21 => ⟨S_, .f32⟩
  | 22 => ⟨S50000, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S800000x1, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S800000x128, .f32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x16, .f32⟩
  | 67 => ⟨S_, .f32⟩
  | 68 => ⟨S50000, .f32⟩
  | 69 => ⟨S800000x1, .i32⟩
  | 70 => ⟨S50000, .f32⟩
  | 71 => ⟨S_, .f32⟩
  | 72 => ⟨S50000, .f32⟩
  | 73 => ⟨S50000, .i1⟩
  | 74 => ⟨S50000, .f32⟩
  | 75 => ⟨S_, .f32⟩
  | 76 => ⟨S_, .f32⟩
  | 77 => ⟨S50000, .f32⟩
  | 78 => ⟨S50000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S800000, .f32⟩
  | 99 => ⟨S800000x1, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x16, .f32⟩
  | 109 => ⟨S800000x16, .f32⟩
  | 110 => ⟨S800000x16, .f32⟩
  | 111 => ⟨S_, .f32⟩
  | 112 => ⟨S50000x16, .f32⟩
  | 113 => ⟨S800000x1, .i32⟩
  | 114 => ⟨S50000x16, .f32⟩
  | 115 => ⟨S1x16, .f32⟩
  | 116 => ⟨S50000x16, .f32⟩
  | 117 => ⟨S50000x16, .f32⟩
  | 118 => ⟨S_, .f32⟩
  | 119 => ⟨S50000, .f32⟩
  | 120 => ⟨S_, .f32⟩
  | 121 => ⟨S50000, .f32⟩
  | 122 => ⟨S50000, .f32⟩
  | 123 => ⟨S50000x1, .f32⟩
  | 124 => ⟨S50000x16, .f32⟩
  | 125 => ⟨S50000x16, .f32⟩
  | 126 => ⟨S50000x16, .f32⟩
  | 127 => ⟨S_, .f32⟩
  | _ => ⟨S50000x256, .f32⟩

abbrev hbmTy0_1 (i : Nat) : BufTy := match i % 128 with
  | 0 => ⟨S50000, .f32⟩
  | 1 => ⟨S50000x1, .f32⟩
  | 2 => ⟨S50000x1, .f32⟩
  | 3 => ⟨S50000x16, .f32⟩
  | 4 => ⟨S50000x16, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_call2_v0 : Ref sig .tc := ⟨.hbm, 76, rfl⟩
abbrev main_call2_v1 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call3_cst : Ref sig .tc := ⟨.hbm, 118, rfl⟩
abbrev main_call3_v0 : Ref sig .tc := ⟨.hbm, 119, rfl⟩
abbrev main_call3_cst_0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_v6 : Ref sig .tc := ⟨.hbm, 126, rfl⟩
abbrev main_call3_cst_1 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_v85 : Ref sig .tc := ⟨.hbm, 132, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  dot_S50000x256_S256x128_S50000x128_1_0_0_1_n_n_wf : DotDims.WF S50000x256 S256x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x16_S50000x16_1_0_0_1_n_n_wf : DotDims.WF S50000x128 S128x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf

class Facts : Prop extends Facts₀ where

variable [Facts]
-- ==== Proof.KernelRun.lean ====
/-
  The idealized kernel's run, with its result named. The program is four pipelined regions among stretches of host
  operations; its frame certificate already threads the device's buffer contents through every segment boundary
  (`Gen.W0 … Gen.W8`: a host stretch's fold, a region's arrays at what its write-backs leave). Run once more over the
  same segments, the launch theorem gives every unscoped buffer at the LAST boundary's contents `Gen.W8`; read at the
  result buffer this names the result array, and at each argument its launch contents, as the frame does.
-/
import proofs.«126643_j78889959292957_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument array as launched. -/
theorem run : θ_run defs (onTc (τ := τ) (main (F := F))) ⟨m, fun _ => 0, ρ⟩ (fun r => ∀ c : Dev nD,
      r.2.mem ((c.tc : Thread nD τ).loc main_v74) = W8 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v74 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Hand

end
-- ==== Proof.RefFrame.lean ====
/-
  The reference program writes none of its argument arrays: each of its 126 host operations writes one result buffer of
  its own, distinct from the seven arguments. So the fold of the operations over any contents leaves each argument's
  buffer as it was — which, with the program's run, is the reference's frame.
-/
import proofs.«126643_j78889959292957_1_alg».proof.Proof.RefOps
import Idealize.ShloMosaic.Lib.StableHlo.Run

set_option maxRecDepth 16384

noncomputable section

namespace Cert.ReferenceIdeal.Kept

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F] (V : Valuation τ sig (Elt F))

theorem arg0 : after (ops (F := F)) V (Proc.devRef .tc main_arg0) = V (Proc.devRef .tc main_arg0) := by
  after_results_simp

theorem arg1 : after (ops (F := F)) V (Proc.devRef .tc main_arg1) = V (Proc.devRef .tc main_arg1) := by
  after_results_simp

theorem arg2 : after (ops (F := F)) V (Proc.devRef .tc main_arg2) = V (Proc.devRef .tc main_arg2) := by
  after_results_simp

theorem arg3 : after (ops (F := F)) V (Proc.devRef .tc main_arg3) = V (Proc.devRef .tc main_arg3) := by
  after_results_simp

theorem arg4 : after (ops (F := F)) V (Proc.devRef .tc main_arg4) = V (Proc.devRef .tc main_arg4) := by
  after_results_simp

theorem arg5 : after (ops (F := F)) V (Proc.devRef .tc main_arg5) = V (Proc.devRef .tc main_arg5) := by
  after_results_simp

theorem arg6 : after (ops (F := F)) V (Proc.devRef .tc main_arg6) = V (Proc.devRef .tc main_arg6) := by
  after_results_simp

end Cert.ReferenceIdeal.Kept

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«126643_j78889959292957_1_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.ZeroOffsets.lean ====
/-
  A small fact every region's reading uses: the zero offsets of a whole-block access, as the constant-zero function.
-/
import Idealize.ShloMosaic.Lib.ValueIdx

namespace Cert.KernelIdeal.Hand

theorem hz : (![0, 0] : Fin 2 → Nat) = fun _ => 0 := funext fun a => by fin_cases a <;> rfl

end Cert.KernelIdeal.Hand
-- ==== Proof.Region0.lean ====
/-
  The first dense layer's linear map, x·W1, as the first pipelined region computes it.  The region walks the 50000 rows
  of x in ten blocks of 5000; at each block the matrix unit multiplies the block (rounded to bf16, which at the extended
  reals changes nothing) by the whole of W1 into a zero accumulator, so entry (p, q) of the block's result is
  Σ_k x[5000·t + p, k] · W1[k, q]: row 5000·t + p of the host's one whole product. The ten result blocks tile the
  result array, so after the region the array IS the host's dot_general of the two arrays it was entered with.
-/
import proofs.«126643_j78889959292957_1_alg».proof.Proof.Gen.KernelIdeal.Frame
import proofs.«126643_j78889959292957_1_alg».proof.Proof.LibMatmulNN
import proofs.«126643_j78889959292957_1_alg».proof.Proof.LibDotGeneralNN
import proofs.«126643_j78889959292957_1_alg».proof.Proof.ZeroOffsets
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The host's one whole product of a 50000×256 array by a 256×128 array. -/
abbrev G0 (a0 : S50000x256.Idx → Elt Ideal .f32) (a1 : S256x128.Idx → Elt Ideal .f32) : S50000x128.Idx → Elt Ideal .f32 :=
  Host.dotGeneral (F := Ideal) (φ₁ := .f32) (φ₂ := .f32) (DotDims.plain 50000 256 128) none a0 a1

/-- One block's product, entry by entry, is the corresponding row of the whole product x·W. -/
theorem pay0_apply (A : FVec Ideal S50000x256 .f32) (B : FVec Ideal S256x128 .f32) (X : Vec Ideal S5000x256 .f32) (Wt : Vec Ideal S256x128 .f32)
    (hW : Wt = B) (base : Nat)
    (hX : ∀ (y' : S5000x256.Idx) (i' : S50000x256.Idx), (i' 0).val = base + (y' 0).val → (i' 1).val = (y' 1).val → X y' = A i')
    (y : S5000x128.Idx) (i : S50000x128.Idx) (hi0 : (i 0).val = base + (y 0).val) (hi1 : (i 1).val = (y 1).val) :
    k0_pay1 (F := Ideal) X Wt y = G0 A B i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  have hq : q' = q := Fin.ext hi1
  subst hq; subst hW
  unfold k0_pay1
  refine (LibMatmulNN.matmul_zero_apply 5000 256 128 none _ _ p q').trans ?_
  refine Eq.trans ?_ (LibDotGeneralNN.dotGeneral_apply 50000 256 128 none .single A Wt r q').symm
  refine Finset.sum_congr rfl fun k _ => ?_
  rw [truncf_apply, truncf_apply]
  exact congrArg (· * Wt (ix2 k q')) (hX (ix2 p k) (ix2 r k) hi0 rfl)

/-- The printed index maps over the ten grid points: the row-tiled operand and the result move together, block `t` of rows; the
    small operand stays at its one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row-tiled operand's block at point `t` is rows `5000·t … 5000·t + 4999` of its array. -/
theorem iblk0_rows (c : Dev nD) (t : Fin cfg0.N) (y : S5000x256.Idx) (i : S50000x256.Idx)
    (h0 : (i 0).val = 5000 * t.val + (y 0).val) (h1 : (i 1).val = (y 1).val) :
    (iblk0 V c 0 t : Vec Ideal S5000x256 .f32) y = (V c main_arg0 : S50000x256.Idx → Elt Ideal .f32) i := by
  obtain ⟨e0, e1, -, -, -, -⟩ := idx0 t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 256 + 1 * (y 1).val = (i 1).val; rw [e1, h1]; omega

/-- The small operand's one block is its whole array, at every point. -/
theorem iblk0_whole (c : Dev nD) (t : Fin cfg0.N) :
    (iblk0 V c 1 t : Vec Ideal S256x128 .f32) = (V c main_arg3 : S256x128.Idx → Elt Ideal .f32) := by
  obtain ⟨-, -, e2, e3, -, -⟩ := idx0 t
  funext y
  unfold iblk0
  rw [View.read_apply]
  show V c main_arg3 _ = V c main_arg3 _
  congr 1
  funext a
  apply Fin.ext
  match a with
  | ⟨0, _⟩ => show win0_1.index t 0 * 256 + 1 * (y 0).val = (y 0).val; rw [e2]; omega
  | ⟨1, _⟩ => show win0_1.index t 1 * 128 + 1 * (y 1).val = (y 1).val; rw [e3]; omega

/-- What point `t` writes back is block `t` of the whole-array function of the arrays the region was entered with. -/
theorem flushed0_eq (c : Dev nD) (t : Fin cfg0.N) :
    (dat0 V c).flushed 2 t = ((cfg0.win 2).blk t).view.read (Elt Ideal) (G0 (V c main_arg0) (V c main_arg3)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨-, -, -, -, e4, e5⟩ := idx0 t
  funext j
  refine pay0_apply (V c main_arg0) (V c main_arg3) (iblk0 V c 0 t) (iblk0 V c 1 t) (iblk0_whole V c t) (5000 * t.val)
    (fun y' i' h0 h1 => iblk0_rows V c t y' i' h0 h1) j (((cfg0.win 2).blk t).view.emb j) ?_ ?_
  · show win0_2.index t 0 * 5000 + 1 * (j 0).val = 5000 * t.val + (j 0).val; rw [e4]; omega
  · show win0_2.index t 1 * 128 + 1 * (j 1).val = (j 1).val; rw [e5]; omega

/-- Every index of the result array lies in the block of the point that owns its row. -/
theorem cover0 (i : S50000x128.Idx) : ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  let t : Fin cfg0.N := ⟨(i 0).val / 5000, by rw [hN]; omega⟩
  obtain ⟨-, -, -, -, e4, e5⟩ := idx0 t
  refine ⟨t, flush0_2 t, ?_⟩
  show i ∈ ((View.whole main_v11).slice (win0_2.rect t)).set
  rw [View.set_slice_whole, Rect.mem_set_unit]
  intro a
  have ht : t.val = (i 0).val / 5000 := rfl
  match a with
  | ⟨0, _⟩ => show win0_2.index t 0 * 5000 ≤ (i 0).val ∧ (i 0).val < win0_2.index t 0 * 5000 + 5000; rw [e4, ht]; omega
  | ⟨1, _⟩ => show win0_2.index t 1 * 128 ≤ (i 1).val ∧ (i 1).val < win0_2.index t 1 * 128 + 128; rw [e5]; omega

/-- After the region the result array is the host's whole product of the two arrays the region was entered with. -/
theorem final0 (c : Dev nD) :
    (dat0 V c).arrAt 2 cfg0.N = G0 (V c main_arg0) (V c main_arg3) :=
  (dat0 V c).arrAt_eq_of_cover 2 _ (fun t _ => flushed0_eq V c t) cover0

end Cert.KernelIdeal.Hand

end
-- ==== Proof.LibBroadcastInDimPair.lean ====
/-
  A host `broadcast_in_dim` of a rank-2 operand with a unit axis onto axes (0, 1) of a rank-2 result, read at an index,
  in the style of the library's Lib/ValueLayout.lean (which has the vector-broadcast forms): a COLUMN [a, 1] spread along
  the second axis of [a, b], and a ROW [1, b] spread down the first axis of [a, b].  General in the two extents and in the
  element type.
-/
import Idealize.ShloMosaic.Lib.Pipeline.Value
import Idealize.ShloMosaic.Lib.ValueIdx

noncomputable section

namespace Idealize.ShloMosaic.ValueIdx

variable {α : Type}

/-- A column `[a, 1]` placed on axes (0, 1) of `[a, b]` reads, at `(p, c)`, the column's entry of row `p`. -/
theorem broadcastInDim_col_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` placed on axes (0, 1) of `[a, b]` reads, at `(p, c)`, the row's entry of column `c`. -/
theorem broadcastInDim_row_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx

end
-- ==== Proof.LibVecLayout.lean ====
/-
  Vectors laid along an axis of a rank-two array, read at an index.  A vector of length n placed on axis 1 of a
  [1, n] array reads, at (u, k), its entry k; placed on axis 0 of an [a, 1] array it reads, at (p, u), its entry p; a
  scalar placed everywhere reads the scalar; and a column [a, 1] broadcast over the lanes of [a, b] reads, at (p, c),
  the column's entry of row p.  These are the layout steps of a bias row added to every row of a matrix and of a
  per-row statistic (a maximum, a sum) subtracted from every entry of its row.  General in the extents and the
  element type.
-/
import Idealize.ShloMosaic.Lib.Pipeline.Value
import Idealize.ShloMosaic.Lib.ValueIdx

namespace LibVecLayout

open Idealize.ShloMosaic Idealize.ShloMosaic.ValueIdx

variable {α : Type}

/-- A vector `[n]` placed on axis 1 of `[1, n]` reads, at `(u, k)`, its entry `k`. -/
theorem broadcastInDim_vec_row_apply {n : ℕ} (v : (⟨1, ![n]⟩ : Shape).Idx → α)
    (h : (⟨1, ![n]⟩ : Shape).BroadcastsInDim ⟨2, ![1, n]⟩ ![1]) (u : Fin 1) (k : Fin n) :
    broadcastInDim ⟨2, ![1, n]⟩ ![1] h v (ix2 u k) = v (ix1 k) := by
  refine broadcastInDim_apply _ h v (ix2 u k) (ix1 k) fun ax => ?_
  match ax with
  | ⟨0, _⟩ =>
    show k.val = if n = 1 then 0 else k.val
    split
    · have := k.isLt; omega
    · rfl

/-- A vector `[a]` placed on axis 0 of `[a, 1]` reads, at `(p, u)`, its entry `p`. -/
theorem broadcastInDim_vec_col_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A scalar placed at every index of any shape reads the scalar. -/
theorem broadcastInDim_scalar_apply {t : Shape} (v : (⟨0, ![]⟩ : Shape).Idx → α)
    (h : (⟨0, ![]⟩ : Shape).BroadcastsInDim t ![]) (j : t.Idx) (z : (⟨0, ![]⟩ : Shape).Idx) :
    broadcastInDim t ![] h v j = v z := by
  unfold broadcastInDim
  exact congrArg v (funext fun a => a.elim0)

/-- A column `[a, 1]` broadcast over the lanes of `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end LibVecLayout
-- ==== Proof.Region1.lean ====
/-
  The first layer's bias and rectification, as the second pipelined region computes them. The region walks the 50000 rows
  of the aggregated array in ten blocks of 5000; at each block it adds the bias row b1 (held as a 1×128 array, broadcast down
  the block's rows) and takes the maximum with zero. Entry (p, q) of block t's result is max(agg[5000·t + p, q] + b1[q], 0):
  entry (5000·t + p, q) of the host's whole-array form, the bias vector laid along the rows of the 50000×128 array, added, and
  the maximum taken with the zero array. The ten blocks tile the result.
-/
import proofs.«126643_j78889959292957_1_alg».proof.Proof.Gen.KernelIdeal.Frame
import proofs.«126643_j78889959292957_1_alg».proof.Proof.LibBroadcastInDimPair
import proofs.«126643_j78889959292957_1_alg».proof.Proof.LibVecLayout
import proofs.«126643_j78889959292957_1_alg».proof.Proof.ZeroOffsets
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The host's whole-array form: the bias vector laid along every row, added, and the maximum taken with zero. -/
abbrev G1 (a : S50000x128.Idx → Elt Ideal .f32) (b : S128.Idx → Elt Ideal .f32) : S50000x128.Idx → Elt Ideal .f32 :=
  maximumf (F := Ideal) (s := S50000x128) (φ := .f32)
    (addf (F := Ideal) (s := S50000x128) (φ := .f32) a
      (broadcastInDim (s := S1x128) S50000x128 ![0, 1] (by decide) (broadcastInDim (s := S128) S1x128 ![1] (by decide) b)))
    (broadcastInDim (s := S_) S50000x128 ![] (by decide) (constant (F := Ideal) S_ .f32 0x00000000#32))

/-- One block's result, entry by entry, is the corresponding entry of the whole-array form. -/
theorem pay1_apply (A : S50000x128.Idx → Elt Ideal .f32) (b : S128.Idx → Elt Ideal .f32) (X : Vec Ideal S5000x128 .f32) (Br : Vec Ideal S1x128 .f32)
    (hB : Br = shapeCast S1x128 b (by decide)) (base : Nat)
    (hX : ∀ (y' : S5000x128.Idx) (i' : S50000x128.Idx), (i' 0).val = base + (y' 0).val → (i' 1).val = (y' 1).val → X y' = A i')
    (y : S5000x128.Idx) (i : S50000x128.Idx) (hi0 : (i 0).val = base + (y 0).val) (hi1 : (i 1).val = (y 1).val) :
    k1_pay1 (F := Ideal) X Br y = G1 A b i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  have hq : q' = q := Fin.ext hi1
  subst hq; subst hB
  unfold k1_pay1
  refine congrArg₂ max (congrArg₂ (· + ·) ?_ ?_) ?_
  · rw [shapeCast_self]; exact hX (ix2 p q') (ix2 r q') hi0 rfl
  · refine (broadcastTo_1b_ab_apply _ _ p q').trans ?_
    rw [shapeCast_self]
    refine (shapeCast_a_1a_apply b _ 0 q').trans ?_
    refine Eq.symm ((broadcastInDim_row_apply _ _ r q').trans ?_)
    exact LibVecLayout.broadcastInDim_vec_row_apply b _ 0 q'
  · rfl

/-- The printed index maps over the ten grid points: the row-tiled operand and the result move together, block `t` of rows; the
    small operand stays at its one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row-tiled operand's block at point `t` is rows `5000·t … 5000·t + 4999` of its array. -/
theorem iblk1_rows (c : Dev nD) (t : Fin cfg1.N) (y : S5000x128.Idx) (i : S50000x128.Idx)
    (h0 : (i 0).val = 5000 * t.val + (y 0).val) (h1 : (i 1).val = (y 1).val) :
    (iblk1 V c 0 t : Vec Ideal S5000x128 .f32) y = (V c main_v40 : S50000x128.Idx → Elt Ideal .f32) i := by
  obtain ⟨e0, e1, -, -, -, -⟩ := idx1 t
  unfold iblk1
  rw [View.read_apply]
  show V c main_v40 _ = V c main_v40 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The small operand's one block is its whole array, at every point. -/
theorem iblk1_whole (c : Dev nD) (t : Fin cfg1.N) :
    (iblk1 V c 1 t : Vec Ideal S1x128 .f32) = (V c main_v41 : S1x128.Idx → Elt Ideal .f32) := by
  obtain ⟨-, -, e2, e3, -, -⟩ := idx1 t
  funext y
  unfold iblk1
  rw [View.read_apply]
  show V c main_v41 _ = V c main_v41 _
  congr 1
  funext a
  apply Fin.ext
  match a with
  | ⟨0, _⟩ => show win1_1.index t 0 * 1 + 1 * (y 0).val = (y 0).val; rw [e2]; omega
  | ⟨1, _⟩ => show win1_1.index t 1 * 128 + 1 * (y 1).val = (y 1).val; rw [e3]; omega

/-- What point `t` writes back is block `t` of the whole-array function of the arrays the region was entered with. -/
theorem flushed1_eq (c : Dev nD) (t : Fin cfg1.N) (b : S128.Idx → Elt Ideal .f32)
    (hb : (V c main_v41 : S1x128.Idx → Elt Ideal .f32) = shapeCast S1x128 b (by decide)) :
    (dat1 V c).flushed 2 t = ((cfg1.win 2).blk t).view.read (Elt Ideal) (G1 (V c main_v40) b) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨-, -, -, -, e4, e5⟩ := idx1 t
  funext j
  refine pay1_apply (V c main_v40) b (iblk1 V c 0 t) (iblk1 V c 1 t) ((iblk1_whole V c t).trans hb) (5000 * t.val)
    (fun y' i' h0 h1 => iblk1_rows V c t y' i' h0 h1) j (((cfg1.win 2).blk t).view.emb j) ?_ ?_
  · show win1_2.index t 0 * 5000 + 1 * (j 0).val = 5000 * t.val + (j 0).val; rw [e4]; omega
  · show win1_2.index t 1 * 128 + 1 * (j 1).val = (j 1).val; rw [e5]; omega

/-- Every index of the result array lies in the block of the point that owns its row. -/
theorem cover1 (i : S50000x128.Idx) : ∃ t : Fin cfg1.N, (cfg1.win 2).flush t = true ∧ i ∈ ((cfg1.win 2).blk t).view.set := by
  have hN : cfg1.N = 10 := N_1
  have hi0 : (i 0).val < 50000 := (i 0).isLt
  have hi1 : (i 1).val < 128 := (i 1).isLt
  let t : Fin cfg1.N := ⟨(i 0).val / 5000, by rw [hN]; omega⟩
  obtain ⟨-, -, -, -, e4, e5⟩ := idx1 t
  refine ⟨t, flush1_2 t, ?_⟩
  show i ∈ ((View.whole main_v42).slice (win1_2.rect t)).set
  rw [View.set_slice_whole, Rect.mem_set_unit]
  intro a
  have ht : t.val = (i 0).val / 5000 := rfl
  match a with
  | ⟨0, _⟩ => show win1_2.index t 0 * 5000 ≤ (i 0).val ∧ (i 0).val < win1_2.index t 0 * 5000 + 5000; rw [e4, ht]; omega
  | ⟨1, _⟩ => show win1_2.index t 1 * 128 ≤ (i 1).val ∧ (i 1).val < win1_2.index t 1 * 128 + 128; rw [e5]; omega

/-- After the region the result array is the whole-array form of the aggregated array the region was entered with and of the
    bias vector whose row the region was entered with. -/
theorem final1 (c : Dev nD) (b : S128.Idx → Elt Ideal .f32)
    (hb : (V c main_v41 : S1x128.Idx → Elt Ideal .f32) = shapeCast S1x128 b (by decide)) :
    (dat1 V c).arrAt 2 cfg1.N = G1 (V c main_v40) b :=
  (dat1 V c).arrAt_eq_of_cover 2 _ (fun t _ => flushed1_eq V c t b hb) cover1

end Cert.KernelIdeal.Hand

end
-- ==== Proof.Region2.lean ====
/-
  The second dense layer's linear map, h·W2, as the third pipelined region computes it: the same walk as the first layer's,
  over the 50000 rows of the hidden array in ten blocks of 5000, each block (cast to its own shape, rounded to bf16 — both
  the identity at the extended reals) multiplied by the whole of W2 into a zero accumulator. Entry (p, q) of block t's result
  is Σ_k h[5000·t + p, k] · W2[k, q], row 5000·t + p of the host's one whole product, and the ten blocks tile the result.
-/
import proofs.«126643_j78889959292957_1_alg».proof.Proof.Gen.KernelIdeal.Frame
import proofs.«126643_j78889959292957_1_alg».proof.Proof.LibMatmulNN
import proofs.«126643_j78889959292957_1_alg».proof.Proof.LibDotGeneralNN
import proofs.«126643_j78889959292957_1_alg».proof.Proof.ZeroOffsets
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The host's one whole product of a 50000×128 array by a 128×16 array. -/
abbrev G2 (a0 : S50000x128.Idx → Elt Ideal .f32) (a1 : S128x16.Idx → Elt Ideal .f32) : S50000x16.Idx → Elt Ideal .f32 :=
  Host.dotGeneral (F := Ideal) (φ₁ := .f32) (φ₂ := .f32) (DotDims.plain 50000 128 16) none a0 a1

/-- One block's product, entry by entry, is the corresponding row of the whole product h·W. -/
theorem pay2_apply (A : FVec Ideal S50000x128 .f32) (B : FVec Ideal S128x16 .f32) (X : Vec Ideal S5000x128 .f32) (Wt : Vec Ideal S128x16 .f32)
    (hW : Wt = B) (base : Nat)
    (hX : ∀ (y' : S5000x128.Idx) (i' : S50000x128.Idx), (i' 0).val = base + (y' 0).val → (i' 1).val = (y' 1).val → X y' = A i')
    (y : S5000x16.Idx) (i : S50000x16.Idx) (hi0 : (i 0).val = base + (y 0).val) (hi1 : (i 1).val = (y 1).val) :
    k2_pay1 (F := Ideal) X Wt y = G2 A B i := by
  obtain ⟨p, q, rfl⟩ : ∃ (p : Fin 5000) (q : Fin 16), y = ix2 p q := ⟨y 0, y 1, eq_ix2 y⟩
  obtain ⟨r, q', rfl⟩ : ∃ (r : Fin 50000) (q' : Fin 16), i = ix2 r q' := ⟨i 0, i 1, eq_ix2 i⟩
  have hq : q' = q := Fin.ext hi1
  subst hq; subst hW
  unfold k2_pay1
  refine (LibMatmulNN.matmul_zero_apply 5000 128 16 none _ _ p q').trans ?_
  refine Eq.trans ?_ (LibDotGeneralNN.dotGeneral_apply 50000 128 16 none .single A Wt r q').symm
  refine Finset.sum_congr rfl fun k _ => ?_
  rw [truncf_apply, truncf_apply, shapeCast_self]
  exact congrArg (· * Wt (ix2 k q')) (hX (ix2 p k) (ix2 r k) hi0 rfl)

/-- The printed index maps over the ten grid points: the row-tiled operand and the result move together, block `t` of rows; the
    small operand stays at its one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row-tiled operand's block at point `t` is rows `5000·t … 5000·t + 4999` of its array. -/
theorem iblk2_rows (c : Dev nD) (t : Fin cfg2.N) (y : S5000x128.Idx) (i : S50000x128.Idx)
    (h0 : (i 0).val = 5000 * t.val + (y 0).val) (h1 : (i 1).val = (y 1).val) :
    (iblk2 V c 0 t : Vec Ideal S5000x128 .f32) y = (V c main_v42 : S50000x128.Idx → Elt Ideal .f32) i := by
  obtain ⟨e0, e1, -, -, -, -⟩ := idx2 t
  unfold iblk2
  rw [View.read_apply]
  show V c main_v42 _ = V c main_v42 _
  congr 1
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- The small operand's one block is its whole array, at every point. -/
theorem iblk2_whole (c : Dev nD) (t : Fin cfg2.N) :
    (iblk2 V c 1 t : Vec Ideal S128x16 .f32) = (V c main_arg5 : S128x16.Idx → Elt Ideal .f32) := by
  obtain ⟨-, -, e2, e3, -, -⟩ := idx2 t
  funext y
  unfold iblk2
  rw [View.read_apply]
  show V c main_arg5 _ = V c main_arg5 _
  congr 1
  funext a
  apply Fin.ext
  match a with
  | ⟨0, _⟩ => show win2_1.index t 0 * 128 + 1 * (y 0).val = (y 0).val; rw [e2]; omega
  | ⟨1, _⟩ => show win2_1.index t 1 * 16 + 1 * (y 1).val = (y 1).val; rw [e3]; omega

/-- What point `t` writes back is block `t` of the whole-array function of the arrays the region was entered with. -/
theorem flushed2_eq (c : Dev nD) (t : Fin cfg2.N) :
    (dat2 V c).flushed 2 t = ((cfg2.win 2).blk t).view.read (Elt Ideal) (G2 (V c main_v42) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x16) hz]
  obtain ⟨-, -, -, -, e4, e5⟩ := idx2 t
  funext j
  refine pay2_apply (V c main_v42) (V c main_arg5) (iblk2 V c 0 t) (iblk2 V c 1 t) (iblk2_whole V c t) (5000 * t.val)
    (fun y' i' h0 h1 => iblk2_rows V c t y' i' h0 h1) j (((cfg2.win 2).blk t).view.emb j) ?_ ?_
  · show win2_2.index t 0 * 5000 + 1 * (j 0).val = 5000 * t.val + (j 0).val; rw [e4]; omega
  · show win2_2.index t 1 * 16 + 1 * (j 1).val = (j 1).val; rw [e5]; omega

/-- Every index of the result array lies in the block of the point that owns its row. -/
theorem cover2 (i : S50000x16.Idx) : ∃ t : Fin cfg2.N, (cfg2.win 2).flush t = true ∧ i ∈ ((cfg2.win 2).blk t).view.set := by
  have hN : cfg2.N = 10 := N_2
  have hi0 : (i 0).val < 50000 := (i 0).isLt
  have hi1 : (i 1).val < 16 := (i 1).isLt
  let t : Fin cfg2.N := ⟨(i 0).val / 5000, by rw [hN]; omega⟩
  obtain ⟨-, -, -, -, e4, e5⟩ := idx2 t
  refine ⟨t, flush2_2 t, ?_⟩
  show i ∈ ((View.whole main_v43).slice (win2_2.rect t)).set
  rw [View.set_slice_whole, Rect.mem_set_unit]
  intro a
  have ht : t.val = (i 0).val / 5000 := rfl
  match a with
  | ⟨0, _⟩ => show win2_2.index t 0 * 5000 ≤ (i 0).val ∧ (i 0).val < win2_2.index t 0 * 5000 + 5000; rw [e4, ht]; omega
  | ⟨1, _⟩ => show win2_2.index t 1 * 16 ≤ (i 1).val ∧ (i 1).val < win2_2.index t 1 * 16 + 16; rw [e5]; omega

/-- After the region the result array is the host's whole product of the two arrays the region was entered with. -/
theorem final2 (c : Dev nD) : (dat2 V c).arrAt 2 cfg2.N = G2 (V c main_v42) (V c main_arg5) :=
  (dat2 V c).arrAt_eq_of_cover 2 _ (fun t _ => flushed2_eq V c t) cover2

end Cert.KernelIdeal.Hand

end
-- ==== Proof.LibLaneReduce.lean ====
/-
  Reductions along the lanes of an `[r, n]` block, read at a row.

  A kernel that keeps a quantity's index on the rows reduces over the lanes of an `[r, n]` value (axis 1), obtaining a
  vector of length `r`, and views it as an `[r, 1]` column (a sum or a maximum taken with the axis kept).  At the
  extended reals the entry of that column at row `p` is the sum, or the fold of `max` from the accumulator's value, over
  the `n` entries of row `p`; where the maximum is first taken once more against the accumulator's value broadcast (as
  a lowered softmax does), it is the `max` of that value with the fold.  General in both extents.
-/
import Idealize.ShloMosaic.PureOps.Ideal.Laws
import Idealize.ShloMosaic.Lib.ValueIdx
import Idealize.ShloMosaic.Lib.Pipeline.Value

noncomputable section

open scoped BigOperators

namespace LibLaneReduce

open Idealize.ShloMosaic Idealize.ShloMosaic.ValueIdx

variable {r n : Nat}

/-- The reduced index `p` with lane `k` put back is `(p, k)`. -/
theorem lift_lanes (h : (⟨2, ![r, n]⟩ : Shape).Reduces [1] (⟨1, ![r]⟩ : Shape)) (p : Fin r)
    (k : Fin ((⟨2, ![r, n]⟩ : Shape).size 1)) : h.lift (ix1 p) k = ix2 p (⟨k.val, k.isLt⟩ : Fin n) := by
  funext c; apply Fin.ext
  fin_cases c <;> rfl

/-- A vector of length `r` viewed as a column `[r, 1]` reads, at `(p, 0)`, the vector at `p`: the reshape keeps the
    row-major position `p = p · 1 + 0`. -/
theorem col_apply {α : Type} (x : (⟨1, ![r]⟩ : Shape).Idx → α) (hs : (⟨1, ![r]⟩ : Shape).ShapeCasts ⟨2, ![r, 1]⟩) (p : Fin r) :
    shapeCast ⟨2, ![r, 1]⟩ x hs (ix2 p (0 : Fin 1)) = x (ix1 p) :=
  shapeCast_apply x hs _ _ (by
    rw [Shape.rowMajor_val_one, Shape.rowMajor_val_two]
    show p.val = p.val * 1 + 0
    omega)

/-- A sum along the lanes kept as a column: at row `p` the sum of row `p`. -/
theorem sumLanes_apply (V : FVec Ideal ⟨2, ![r, n]⟩ .f32) (h : (⟨2, ![r, n]⟩ : Shape).Reduces [1] (⟨1, ![r]⟩ : Shape))
    (hφ : FKind.Formats .f32) (hacc : (0x00000000#32 : BitVec 32) = 0x00000000#32)
    (hs : (⟨1, ![r]⟩ : Shape).ShapeCasts ⟨2, ![r, 1]⟩) (p : Fin r) :
    shapeCast ⟨2, ![r, 1]⟩ (multiReduction .add [1] ⟨1, ![r]⟩ V 0x00000000#32 h hφ hacc) hs (ix2 p (0 : Fin 1))
      = ∑ k : Fin n, V (ix2 p k) := by
  refine (col_apply _ hs p).trans ?_
  refine (Ideal.multiReduction_add_single V 0x00000000#32 h hφ hacc (ix1 p)).trans ?_
  exact Finset.sum_congr rfl fun k _ => congrArg V (lift_lanes h p k)

/-- A maximum along the lanes from the accumulator's value, taken once more against that value, kept as a column:
    at row `p` the `max` of that value with the fold of `max` over row `p`. -/
theorem maxLanes_apply (V : FVec Ideal ⟨2, ![r, n]⟩ .f32) (acc : BitVec 32) (h : (⟨2, ![r, n]⟩ : Shape).Reduces [1] (⟨1, ![r]⟩ : Shape))
    (hφ : FKind.Formats .f32) (hacc' : acc = FKind.maximumf.neutral .f32 hφ)
    (hs : (⟨1, ![r]⟩ : Shape).ShapeCasts ⟨2, ![r, 1]⟩) (p : Fin r) :
    shapeCast ⟨2, ![r, 1]⟩ (maximumf (broadcast ⟨1, ![r]⟩ (Scalar.ofBits .f32 acc)) (multiReduction .maximumf [1] ⟨1, ![r]⟩ V acc h hφ hacc')) hs (ix2 p (0 : Fin 1))
      = max (Ideal.ofBits .f32 acc) ((Finset.univ : Finset (Fin n)).fold max (Ideal.ofBits .f32 acc) fun k => V (ix2 p k)) := by
  refine (col_apply _ hs p).trans ?_
  refine congrArg (max (Ideal.ofBits .f32 acc)) ?_
  refine (Ideal.multiReduction_maximumf_single V acc h hφ hacc' (ix1 p)).trans ?_
  exact congrArg (fun f => Finset.fold max (Ideal.ofBits .f32 acc) f (Finset.univ : Finset (Fin n)))
    (funext fun k => congrArg V (lift_lanes h p k))

end LibLaneReduce

end
-- ==== Proof.LibMatmulNT.lean ====
/-
  A matrix product of a row-major `M × K` block against an `N × K` block whose LAST axis is contracted (the
  right operand enters transposed: the left operand's axis 1 is contracted with the right operand's axis 1),
  accumulated into the zero block and read at the extended reals: entry `(p, q)` of the result is the sum over
  `k` of `x[p, k] · w[q, k]`.  The contraction index of the matrix unit ranges over a one-axis shape of extent
  `K`; it is re-indexed to `Fin K`, and the two operand indices that the dimension record computes are named
  coordinate by coordinate.  General in the three extents and in the operands' float formats.
-/
import Idealize.ShloMosaic.PureOps.Ideal.Laws
import Idealize.ShloMosaic.Lib.ValueIdx

noncomputable section

open scoped BigOperators

namespace LibMatmulNT

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl _ _).trans hk

/-- The right operand's index at output index `(p, q)` and contraction index `k` is `(q, k)`: its row is the
    output's column. -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl _ _).trans hk

/-- Entry `(p, q)` of `x · wᵀ` accumulated into zero is `∑ k, x[p, k] · w[q, k]` on the extended reals. -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant (F := Ideal) ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]

end LibMatmulNT

end
-- ==== Proof.LibHostRead.lean ====
/-
  Host reductions and a host product read at an index, on the extended reals. A host sum along the second axis of an
  [r, n] array, at row p: the initial value plus the sum over the n entries of row p. A host sum of a whole vector: the
  initial value plus the sum of its entries. A host dot_general of an [M, K] array with an [N, K] array, both contracted on
  their last axis, at (p, q): the sum over k of x[p, k] · w[q, k]. General in the extents.
-/
import Idealize.ShloMosaic.PureOps.Ideal.Laws
import Idealize.ShloMosaic.Lib.ValueIdx
import proofs.«126643_j78889959292957_1_alg».proof.Proof.LibMatmulNT
import proofs.«126643_j78889959292957_1_alg».proof.Proof.LibLaneReduce

noncomputable section

open scoped BigOperators

namespace LibHostRead

open Idealize.ShloMosaic Idealize.ShloMosaic.ValueIdx

/-- A host sum along the second axis, read at row p. -/
theorem hostRowSum_apply {r n : Nat} {u : Shape} (x : FVec Ideal ⟨2, ![r, n]⟩ .f32) (init : u.Idx → Ideal .f32)
    (h' : (⟨2, ![r, n]⟩ : Shape).ReducesTo [1] ⟨1, ![r]⟩) (hu : 0 < u.numel)
    (h : (⟨2, ![r, n]⟩ : Shape).Reduces [1] ⟨1, ![r]⟩) (p : Fin r) :
    Host.reduceAdd x init h' hu (ix1 p) = init (Shape.Idx.first hu) + ∑ k : Fin n, x (ix2 p k) := by
  show Ideal.hostReduceAdd h' x (init (Shape.Idx.first hu)) (ix1 p) = _
  rw [Ideal.hostReduceAdd_single h' h x _ (ix1 p)]
  exact congrArg (init (Shape.Idx.first hu) + ·) (Finset.sum_congr rfl fun k _ => congrArg x (LibLaneReduce.lift_lanes h p k))

/-- An index of a vector is its one coordinate. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) : ∑ i, f i = ∑ k : Fin n, f (ix1 k) :=
  (Equiv.sum_comp (idxEquiv1 (n := n)).symm f).symm

/-- A host sum of a whole vector. -/
theorem hostTotalSum_apply {n : Nat} {u : Shape} (x : FVec Ideal ⟨1, ![n]⟩ .f32) (init : u.Idx → Ideal .f32)
    (h' : (⟨1, ![n]⟩ : Shape).ReducesTo [0] ⟨0, ![]⟩) (hu : 0 < u.numel) (j : (⟨0, ![]⟩ : Shape).Idx) :
    Host.reduceAdd x init h' hu j = init (Shape.Idx.first hu) + ∑ k : Fin n, x (ix1 k) := by
  show Ideal.hostReduceAdd h' x (init (Shape.Idx.first hu)) j = _
  rw [Ideal.hostReduceAdd_total h' (fun b => b.elim0) x _ j, sum_idx1]

/-- A host product of two arrays contracted on their last axes, read at (p, q). -/
theorem dotGeneralNT_apply {M K N : Nat} {φ₁ φ₂ : FTy} (prec : Option ContractPrecision)
    (x : FVec Ideal ⟨2, ![M, K]⟩ φ₁) (w : FVec Ideal ⟨2, ![N, K]⟩ φ₂) (p : Fin M) (q : Fin N) :
    Host.dotGeneral (DotDims.transposedRhs M K N) prec x w (ix2 p q) = ∑ k : Fin K, x (ix2 p k) * w (ix2 q k) := by
  show FloatOps.dotGeneral (DotDims.transposedRhs M K N) prec .single x w (ix2 p q) = _
  rw [Ideal.dotGeneral_apply, ← Equiv.sum_comp (contrEquiv1 (DotDims.transposedRhs M K N) K rfl rfl).symm]
  refine Finset.sum_congr rfl fun k _ => ?_
  rw [LibMatmulNT.lhsIdx_eq, LibMatmulNT.rhsIdx_eq]

end LibHostRead

end
-- ==== Proof.Region3.lean ====
/-
  The second layer's bias and row-wise log-softmax, as the fourth pipelined region computes them, against the host's form.
  The region walks the 50000 rows of the aggregated 16-column array in ten blocks of 5000. On a block it forms
  y = agg + b2 (the bias row broadcast down the rows), the row maximum M_p = max_k y[p,k] (a lane reduction started from −∞),
  the shifted entries s[p,q] = y[p,q] − M_p, and the result s[p,q] − log Σ_k exp s[p,k] (a lane sum started from 0). The host
  computes the same four things over the whole 50000×16 array: the bias vector laid along every row and added; a reduce-max
  over axis 1 started from −∞, taken once more against −∞ (which changes nothing: max(−∞, z) = z); the subtraction; exp; a
  reduce-add over axis 1 started from 0 (0 + Σ = Σ); log; the subtraction. Every step is a function of ONE ROW of y, and
  row p of block t is row 5000·t + p of the array, so the two agree entry by entry — on the extended reals, with no
  finiteness asked: the same operations are applied to the same row in the same order.
-/
import proofs.«126643_j78889959292957_1_alg».proof.Proof.Gen.KernelIdeal.Frame
import proofs.«126643_j78889959292957_1_alg».proof.Proof.LibBroadcastInDimPair
import proofs.«126643_j78889959292957_1_alg».proof.Proof.LibVecLayout
import proofs.«126643_j78889959292957_1_alg».proof.Proof.LibLaneReduce
import proofs.«126643_j78889959292957_1_alg».proof.Proof.LibHostRead
import proofs.«126643_j78889959292957_1_alg».proof.Proof.ZeroOffsets
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

local notation "negInf" => (0xFF800000#32 : BitVec 32)

/-- The column shape the host's per-row statistics pass through. -/
abbrev S50000x1 : Shape := ⟨2, ![50000, 1]⟩

/-! ## The block's three steps -/

/-- The block plus the bias row broadcast down its rows. -/
def kBias (X : Vec Ideal S5000x16 .f32) (Br : Vec Ideal S1x16 .f32) : FVec Ideal S5000x16 .f32 :=
  addf (shapeCast S5000x16 X shapeCasts_S5000x16_S5000x16) (broadcastTo S5000x16 (shapeCast S1x16 Br shapeCasts_S1x16_S1x16) broadcasts_S1x16_S5000x16)

/-- Every entry less its row's maximum. -/
def kShift (v5 : FVec Ideal S5000x16 .f32) : FVec Ideal S5000x16 .f32 :=
  subf v5 (broadcastTo S5000x16 (shapeCast S5000x1 (multiReduction .maximumf [1] S5000 v5 negInf reduces_S5000x16_S5000 (.inl rfl) rfl) shapeCasts_S5000_S5000x1) broadcasts_S5000x1_S5000x16)

/-- Every entry less the logarithm of its row's sum of exponentials. -/
def kLogSum (v9 : FVec Ideal S5000x16 .f32) : FVec Ideal S5000x16 .f32 :=
  subf v9 (broadcastTo S5000x16 (log (shapeCast S5000x1 (multiReduction .add [1] S5000 (exp v9) 0x00000000#32 reduces_S5000x16_S5000 (.inl rfl) rfl) shapeCasts_S5000_S5000x1)) broadcasts_S5000x1_S5000x16)

/-- The body's stored value is the three steps composed. -/
theorem k3_pay1_eq (X : Vec Ideal S5000x16 .f32) (Br : Vec Ideal S1x16 .f32) : k3_pay1 (F := Ideal) X Br = kLogSum (kShift (kBias X Br)) := rfl

theorem kShift_apply (v5 : FVec Ideal S5000x16 .f32) (p : Fin 5000) (q : Fin 16) :
    kShift v5 (ix2 p q) = v5 (ix2 p q) - (Finset.univ : Finset (Fin 16)).fold max (Ideal.ofBits .f32 negInf) (fun k => v5 (ix2 p k)) := by
  unfold kShift
  refine congrArg (v5 (ix2 p q) - ·) ?_
  refine (LibVecLayout.broadcastTo_a1_ab_apply _ _ p q).trans ?_
  refine (LibLaneReduce.col_apply _ _ p).trans ?_
  refine (Ideal.multiReduction_maximumf_single v5 negInf reduces_S5000x16_S5000 (.inl rfl) rfl (ix1 p)).trans ?_
  exact congrArg (fun f => Finset.fold max (Ideal.ofBits .f32 negInf) f (Finset.univ : Finset (Fin 16)))
    (funext fun k => congrArg v5 (LibLaneReduce.lift_lanes reduces_S5000x16_S5000 p k))

theorem kLogSum_apply (v9 : FVec Ideal S5000x16 .f32) (p : Fin 5000) (q : Fin 16) :
    kLogSum v9 (ix2 p q) = v9 (ix2 p q) - Ideal.log (∑ k : Fin 16, Ideal.exp (v9 (ix2 p k))) := by
  unfold kLogSum
  refine congrArg (v9 (ix2 p q) - ·) ?_
  refine (LibVecLayout.broadcastTo_a1_ab_apply _ _ p q).trans ?_
  refine congrArg Ideal.log ?_
  exact LibLaneReduce.sumLanes_apply (exp v9) reduces_S5000x16_S5000 (.inl rfl) rfl shapeCasts_S5000_S5000x1 p

/-! ## The host's three steps, over the whole array -/

/-- The bias vector laid along every row of the array, added. -/
def hBias (a : FVec Ideal S50000x16 .f32) (b : FVec Ideal S16 .f32) : FVec Ideal S50000x16 .f32 :=
  addf a (broadcastInDim (s := S1x16) S50000x16 ![0, 1] (by decide) (broadcastInDim (s := S16) S1x16 ![1] (by decide) b))

/-- Every entry less its row's maximum (the reduce-max from −∞, taken once more against −∞). -/
def hShift (y : FVec Ideal S50000x16 .f32) : FVec Ideal S50000x16 .f32 :=
  subf y (broadcastInDim (s := S50000x1) S50000x16 ![0, 1] (by decide) (broadcastInDim (s := S50000) S50000x1 ![0] (by decide)
    (maximumf (broadcastInDim (s := S_) S50000 ![] (by decide) (constant (F := Ideal) S_ .f32 negInf))
      (Host.reduce (s := S50000x16) (axes := [1]) (t := S50000) (u := S_) (FloatOps.maximumf (F := Ideal) (φ := .f32)) y
        (constant (F := Ideal) S_ .f32 negInf) (by decide) (by decide)))))

/-- Every entry less the logarithm of its row's sum of exponentials (the reduce-add from 0). -/
def hLogSum (s : FVec Ideal S50000x16 .f32) : FVec Ideal S50000x16 .f32 :=
  subf s (broadcastInDim (s := S50000x1) S50000x16 ![0, 1] (by decide) (Host.log (broadcastInDim (s := S50000) S50000x1 ![0] (by decide)
    (Host.reduceAdd (s := S50000x16) (axes := [1]) (t := S50000) (u := S_) (Host.exp s) (constant (F := Ideal) S_ .f32 0x00000000#32) (by decide) (by decide)))))

/-- The host's whole-array form of the region. -/
abbrev G3 (a : S50000x16.Idx → Elt Ideal .f32) (b : S16.Idx → Elt Ideal .f32) : S50000x16.Idx → Elt Ideal .f32 :=
  hLogSum (hShift (hBias a b))

theorem max_negInf (z : Ideal .f32) : max (Ideal.ofBits .f32 negInf) z = z := by
  simp [Ideal.ofBits, Ideal.ieee]

/-- A per-row statistic `mvec`, taken once more against −∞, laid down a column and across the 16 lanes, reads at (r, q) the statistic of row r. -/
theorem colMax_apply (mvec : FVec Ideal S50000 .f32) (r : Fin 50000) (q : Fin 16) :
    (broadcastInDim (s := S50000x1) S50000x16 ![0, 1] (by decide) (broadcastInDim (s := S50000) S50000x1 ![0] (by decide)
      (maximumf (broadcastInDim (s := S_) S50000 ![] (by decide) (constant (F := Ideal) S_ .f32 negInf)) mvec))) (ix2 r q) = mvec (ix1 r) := by
  refine (broadcastInDim_col_apply _ _ r q).trans ?_
  refine (LibVecLayout.broadcastInDim_vec_col_apply _ _ r 0).trans ?_
  exact max_negInf (mvec (ix1 r))

/-- The logarithm of a per-row statistic `svec` laid down a column, laid across the 16 lanes, reads at (r, q) the logarithm of row r's. -/
theorem colLog_apply (svec : FVec Ideal S50000 .f32) (r : Fin 50000) (q : Fin 16) :
    (broadcastInDim (s := S50000x1) S50000x16 ![0, 1] (by decide) (Host.log (broadcastInDim (s := S50000) S50000x1 ![0] (by decide) svec))) (ix2 r q)
      = Ideal.log (svec (ix1 r)) := by
  refine (broadcastInDim_col_apply _ _ r q).trans ?_
  exact congrArg Ideal.log (LibVecLayout.broadcastInDim_vec_col_apply svec _ r 0)

/-- The host's reduce-max over axis 1 from −∞, at row r, is the fold of max over that row. -/
theorem rowMax_apply (y : FVec Ideal S50000x16 .f32) (r : Fin 50000) :
    Host.reduce (s := S50000x16) (axes := [1]) (t := S50000) (u := S_) (FloatOps.maximumf (F := Ideal) (φ := .f32)) y
        (constant (F := Ideal) S_ .f32 negInf) (by decide) (by decide) (ix1 r)
      = (Finset.univ : Finset (Fin 16)).fold max (Ideal.ofBits .f32 negInf) (fun k => y (ix2 r k)) := by
  have h : S50000x16.Reduces [1] S50000 := by decide
  rw [Host.reduce_eq_fold_single (FloatOps.maximumf (F := Ideal) (φ := .f32)) y _ _ h _ (ix1 r)]
  exact congrArg (fun f => Finset.fold max (Ideal.ofBits .f32 negInf) f (Finset.univ : Finset (Fin 16)))
    (funext fun k => congrArg y (LibLaneReduce.lift_lanes h r k))

/-- The host's reduce-add over axis 1 from 0, at row r, is the sum over that row. -/
theorem rowSum_apply (e : FVec Ideal S50000x16 .f32) (r : Fin 50000) :
    Host.reduceAdd (s := S50000x16) (axes := [1]) (t := S50000) (u := S_) e (constant (F := Ideal) S_ .f32 0x00000000#32) (by decide) (by decide) (ix1 r)
      = ∑ k : Fin 16, e (ix2 r k) := by
  have h : S50000x16.Reduces [1] S50000 := by decide
  refine (LibHostRead.hostRowSum_apply e _ _ _ h r).trans ?_
  show Ideal.ofBits .f32 0x00000000#32 + _ = _
  rw [Ideal.ofBits_zero_f32, zero_add]

theorem hShift_apply (y : FVec Ideal S50000x16 .f32) (r : Fin 50000) (q : Fin 16) :
    hShift y (ix2 r q) = y (ix2 r q) - (Finset.univ : Finset (Fin 16)).fold max (Ideal.ofBits .f32 negInf) (fun k => y (ix2 r k)) := by
  unfold hShift
  refine congrArg (y (ix2 r q) - ·) ?_
  exact (colMax_apply _ r q).trans (rowMax_apply y r)

theorem hLogSum_apply (s : FVec Ideal S50000x16 .f32) (r : Fin 50000) (q : Fin 16) :
    hLogSum s (ix2 r q) = s (ix2 r q) - Ideal.log (∑ k : Fin 16, Ideal.exp (s (ix2 r k))) := by
  unfold hLogSum
  refine congrArg (s (ix2 r q) - ·) ?_
  exact (colLog_apply _ r q).trans (congrArg Ideal.log (rowSum_apply (Host.exp s) r))

/-! ## One block's result is the corresponding rows of the whole-array form -/

theorem pay3_apply (A : S50000x16.Idx → Elt Ideal .f32) (b : S16.Idx → Elt Ideal .f32) (X : Vec Ideal S5000x16 .f32) (Br : Vec Ideal S1x16 .f32)
    (hB : Br = shapeCast S1x16 b (by decide)) (base : Nat)
    (hX : ∀ (y' : S5000x16.Idx) (i' : S50000x16.Idx), (i' 0).val = base + (y' 0).val → (i' 1).val = (y' 1).val → X y' = A i')
    (y : S5000x16.Idx) (i : S50000x16.Idx) (hi0 : (i 0).val = base + (y 0).val) (hi1 : (i 1).val = (y 1).val) :
    k3_pay1 (F := Ideal) X Br y = G3 A b i := by
  obtain ⟨p, q, rfl⟩ : ∃ (p : Fin 5000) (q : Fin 16), y = ix2 p q := ⟨y 0, y 1, eq_ix2 y⟩
  obtain ⟨r, q', rfl⟩ : ∃ (r : Fin 50000) (q' : Fin 16), i = ix2 r q' := ⟨i 0, i 1, eq_ix2 i⟩
  have hq : q' = q := Fin.ext hi1
  subst hq; subst hB
  -- row p of the block plus the bias is row r of the array plus the bias
  have hrow : ∀ k : Fin 16, kBias X (shapeCast S1x16 b (by decide)) (ix2 p k) = hBias A b (ix2 r k) := fun k => by
    unfold kBias hBias
    refine congrArg₂ (· + ·) ?_ ?_
    · rw [shapeCast_self]; exact hX (ix2 p k) (ix2 r k) hi0 rfl
    · refine (broadcastTo_1b_ab_apply _ _ p k).trans ?_
      rw [shapeCast_self]
      refine (shapeCast_a_1a_apply b _ 0 k).trans ?_
      refine Eq.symm ((broadcastInDim_row_apply _ _ r k).trans ?_)
      exact LibVecLayout.broadcastInDim_vec_row_apply b _ 0 k
  have hfun : (fun k => kBias X (shapeCast S1x16 b (by decide)) (ix2 p k)) = fun k => hBias A b (ix2 r k) := funext hrow
  have hS : ∀ k : Fin 16, kShift (kBias X (shapeCast S1x16 b (by decide))) (ix2 p k) = hShift (hBias A b) (ix2 r k) := fun k => by
    rw [kShift_apply, hShift_apply, hrow k, hfun]
  have hSfun : (fun k => kShift (kBias X (shapeCast S1x16 b (by decide))) (ix2 p k)) = fun k => hShift (hBias A b) (ix2 r k) := funext hS
  rw [k3_pay1_eq]
  show kLogSum _ (ix2 p q') = hLogSum _ (ix2 r q')
  rw [kLogSum_apply, hLogSum_apply, hS q']
  exact congrArg (fun f : Fin 16 → Ideal .f32 => hShift (hBias A b) (ix2 r q') - Ideal.log (∑ k : Fin 16, Ideal.exp (f k))) hSfun

/-- The printed index maps over the ten grid points: the row-tiled operand and the result move together, block `t` of rows; the
    small operand stays at its one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row-tiled operand's block at point `t` is rows `5000·t … 5000·t + 4999` of its array. -/
theorem iblk3_rows (c : Dev nD) (t : Fin cfg3.N) (y : S5000x16.Idx) (i : S50000x16.Idx)
    (h0 : (i 0).val = 5000 * t.val + (y 0).val) (h1 : (i 1).val = (y 1).val) :
    (iblk3 V c 0 t : Vec Ideal S5000x16 .f32) y = (V c main_v72 : S50000x16.Idx → Elt Ideal .f32) i := by
  obtain ⟨e0, e1, -, -, -, -⟩ := idx3 t
  unfold iblk3
  rw [View.read_apply]
  show V c main_v72 _ = V c main_v72 _
  congr 1
  funext a
  apply Fin.ext
  match a with
  | ⟨0, _⟩ => show win3_0.index t 0 * 5000 + 1 * (y 0).val = (i 0).val; rw [e0, h0]; omega
  | ⟨1, _⟩ => show win3_0.index t 1 * 16 + 1 * (y 1).val = (i 1).val; rw [e1, h1]; omega

/-- The small operand's one block is its whole array, at every point. -/
theorem iblk3_whole (c : Dev nD) (t : Fin cfg3.N) :
    (iblk3 V c 1 t : Vec Ideal S1x16 .f32) = (V c main_v73 : S1x16.Idx → Elt Ideal .f32) := by
  obtain ⟨-, -, e2, e3, -, -⟩ := idx3 t
  funext y
  unfold iblk3
  rw [View.read_apply]
  show V c main_v73 _ = V c main_v73 _
  congr 1
  funext a
  apply Fin.ext
  match a with
  | ⟨0, _⟩ => show win3_1.index t 0 * 1 + 1 * (y 0).val = (y 0).val; rw [e2]; omega
  | ⟨1, _⟩ => show win3_1.index t 1 * 16 + 1 * (y 1).val = (y 1).val; rw [e3]; omega

/-- What point `t` writes back is block `t` of the whole-array function of the arrays the region was entered with. -/
theorem flushed3_eq (c : Dev nD) (t : Fin cfg3.N) (b : S16.Idx → Elt Ideal .f32)
    (hb : (V c main_v73 : S1x16.Idx → Elt Ideal .f32) = shapeCast S1x16 b (by decide)) :
    (dat3 V c).flushed 2 t = ((cfg3.win 2).blk t).view.read (Elt Ideal) (G3 (V c main_v72) b) := by
  show (cfg3.win 2).cut (grid3.coords t) ((dat3 V c).after 2 t) = _
  rw [after3_2]
  unfold out3_2
  rw [View.canon_unit_zero hz]
  simp only [View.ld_unit_zero (S := S5000x16) hz, View.ld_unit_zero (S := S1x16) hz]
  obtain ⟨-, -, -, -, e4, e5⟩ := idx3 t
  funext j
  refine pay3_apply (V c main_v72) b (iblk3 V c 0 t) (iblk3 V c 1 t) ((iblk3_whole V c t).trans hb) (5000 * t.val)
    (fun y' i' h0 h1 => iblk3_rows V c t y' i' h0 h1) j (((cfg3.win 2).blk t).view.emb j) ?_ ?_
  · show win3_2.index t 0 * 5000 + 1 * (j 0).val = 5000 * t.val + (j 0).val; rw [e4]; omega
  · show win3_2.index t 1 * 16 + 1 * (j 1).val = (j 1).val; rw [e5]; omega

/-- Every index of the result array lies in the block of the point that owns its row. -/
theorem cover3 (i : S50000x16.Idx) : ∃ t : Fin cfg3.N, (cfg3.win 2).flush t = true ∧ i ∈ ((cfg3.win 2).blk t).view.set := by
  have hN : cfg3.N = 10 := N_3
  have hi0 : (i 0).val < 50000 := (i 0).isLt
  have hi1 : (i 1).val < 16 := (i 1).isLt
  let t : Fin cfg3.N := ⟨(i 0).val / 5000, by rw [hN]; omega⟩
  obtain ⟨-, -, -, -, e4, e5⟩ := idx3 t
  refine ⟨t, flush3_2 t, ?_⟩
  show i ∈ ((View.whole main_v74).slice (win3_2.rect t)).set
  rw [View.set_slice_whole, Rect.mem_set_unit]
  intro a
  have ht : t.val = (i 0).val / 5000 := rfl
  match a with
  | ⟨0, _⟩ => show win3_2.index t 0 * 5000 ≤ (i 0).val ∧ (i 0).val < win3_2.index t 0 * 5000 + 5000; rw [e4, ht]; omega
  | ⟨1, _⟩ => show win3_2.index t 1 * 16 ≤ (i 1).val ∧ (i 1).val < win3_2.index t 1 * 16 + 16; rw [e5]; omega

/-- After the region the result array is the whole-array form of the aggregated array the region was entered with and of the
    bias vector whose row the region was entered with. -/
theorem final3 (c : Dev nD) (b : S16.Idx → Elt Ideal .f32)
    (hb : (V c main_v73 : S1x16.Idx → Elt Ideal .f32) = shapeCast S1x16 b (by decide)) :
    (dat3 V c).arrAt 2 cfg3.N = G3 (V c main_v72) b :=
  (dat3 V c).arrAt_eq_of_cover 2 _ (fun t _ => flushed3_eq V c t b hb) cover3

end Cert.KernelIdeal.Hand

end
-- ==== Proof.RefStretches.lean ====
/-
  The reference's host program, read in eight consecutive stretches. Its 126 operations, in program order: the two index
  rows of the edge list, the first dense product x·W1, the in-degree deg[n] = Σ_{e : col e = n} w_e and its guarded inverse
  square root; the edge coefficients dinv[row e]·w_e·dinv[col e] and the first aggregation agg[n] = Σ_{e : col e = n} coef_e · h[row e];
  its bias and the rectification max(·, 0); the second dense product; the degree and its inverse square root again; the coefficients and the aggregation again;
  the second bias; and the row-wise log-softmax. Each stretch is the corresponding run of elements of the program's operation
  list, unchanged and in order, and the list is their concatenation — by computation. Cutting here makes every stretch read
  only what earlier stretches left, so each can be compared with the kernel's corresponding stage on its own.
-/
import proofs.«126643_j78889959292957_1_alg».proof.Proof.RefOps

noncomputable section

namespace Cert.ReferenceIdeal.Stretch

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-- Operations 1–17: The two index rows, the first dense product, the in-degree and its guarded inverse square root. -/
abbrev s0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_cst (constant S_ .f32 0x00000000#32),
    unary main_cst main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_arg2 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    unary main_v7 main_v10 (Host.rsqrt : (⟨S50000, .f32⟩ : BufTy).Contents (Elt F) → (⟨S50000, .f32⟩ : BufTy).Contents (Elt F)),
    nullary main_cst_1 (constant S_ .f32 0x00000000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v9) (TRef.of (T := ⟨S50000, .f32⟩) main_v10) (TRef.of (T := ⟨S50000, .f32⟩) main_call0_v1) (TRef.of (T := ⟨S50000, .f32⟩) main_v11) select ]

/-- Operations 18–53: The edge coefficients and the first aggregation. -/
abbrev s1 : List (HloOp τ sig (Elt F)) :=
  [ nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v11 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v18 main_arg2 main_v19 (mulf : (⟨S800000, .f32⟩ : BufTy).Contents (Elt F) → (⟨S800000, .f32⟩ : BufTy).Contents (Elt F) → (⟨S800000, .f32⟩ : BufTy).Contents (Elt F)),
    nullary main_c_3 (constantI S_ 32 0#32),
    unary main_c_3 main_v20 (broadcastInDim S800000 ![] bcast_S_S800000 : (⟨S_, .i32⟩ : BufTy).Contents (Elt F) → (⟨S800000, .i32⟩ : BufTy).Contents (Elt F)),
    binary main_v3 main_v20 main_v21 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v22 (broadcastInDim S800000 ![] bcast_S_S800000 : (⟨S_, .i32⟩ : BufTy).Contents (Elt F) → (⟨S800000, .i32⟩ : BufTy).Contents (Elt F)),
    binary main_v3 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_v3 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_v11 main_v25 main_v26 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v19 main_v26 main_v27 (mulf : (⟨S800000, .f32⟩ : BufTy).Contents (Elt F) → (⟨S800000, .f32⟩ : BufTy).Contents (Elt F) → (⟨S800000, .f32⟩ : BufTy).Contents (Elt F)),
    unary main_v27 main_v28 (broadcastInDim S800000x1 ![0] bcast_S800000_S800000x1_0 : (⟨S800000, .f32⟩ : BufTy).Contents (Elt F) → (⟨S800000x1, .f32⟩ : BufTy).Contents (Elt F)),
    nullary main_c_5 (constantI S_ 32 0#32),
    unary main_c_5 main_v29 (broadcastInDim S800000 ![] bcast_S_S800000 : (⟨S_, .i32⟩ : BufTy).Contents (Elt F) → (⟨S800000, .i32⟩ : BufTy).Contents (Elt F)),
    binary main_v1 main_v29 main_v30 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v31 (broadcastInDim S800000 ![] bcast_S_S800000 : (⟨S_, .i32⟩ : BufTy).Contents (Elt F) → (⟨S800000, .i32⟩ : BufTy).Contents (Elt F)),
    binary main_v1 main_v31 main_v32 (addi : (⟨S800000, .i32⟩ : BufTy).Contents (Elt F) → (⟨S800000, .i32⟩ : BufTy).Contents (Elt F) → (⟨S800000, .i32⟩ : BufTy).Contents (Elt F)),
    ternary main_v30 main_v32 main_v1 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v33 main_v34 (broadcastInDim S800000x1 ![0] bcast_S800000_S800000x1_0 : (⟨S800000, .i32⟩ : BufTy).Contents (Elt F) → (⟨S800000x1, .i32⟩ : BufTy).Contents (Elt F)),
    binary main_v4 main_v34 main_v35 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v28 main_v36 (broadcastInDim S800000x128 ![0, 1] bcast_S800000x1_S800000x128_0_1 : (⟨S800000x1, .f32⟩ : BufTy).Contents (Elt F) → (⟨S800000x128, .f32⟩ : BufTy).Contents (Elt F)),
    binary main_v36 main_v35 main_v37 (mulf : (⟨S800000x128, .f32⟩ : BufTy).Contents (Elt F) → (⟨S800000x128, .f32⟩ : BufTy).Contents (Elt F) → (⟨S800000x128, .f32⟩ : BufTy).Contents (Elt F)),
    nullary main_cst_7 (constant S_ .f32 0x00000000#32),
    unary main_cst_7 main_v38 (broadcastInDim S50000x128 ![] bcast_S_S50000x128 : (⟨S_, .f32⟩ : BufTy).Contents (Elt F) → (⟨S50000x128, .f32⟩ : BufTy).Contents (Elt F)),
    unary main_v3 main_v39 (broadcastInDim S800000x1 ![0] bcast_S800000_S800000x1_0 : (⟨S800000, .i32⟩ : BufTy).Contents (Elt F) → (⟨S800000x1, .i32⟩ : BufTy).Contents (Elt F)),
    ternary main_v38 main_v39 main_v37 main_v40 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- Operations 54–59: The first bias and the rectification. -/
abbrev s2 : List (HloOp τ sig (Elt F)) :=
  [ unary main_arg4 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v40 main_v42 main_v43 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v43) (TRef.of (T := ⟨S50000x128, .f32⟩) main_call1_v0) (TRef.of (T := ⟨S50000x128, .f32⟩) main_v44) maximumf ]

/-- Operations 60–60: The second dense product. -/
abbrev s3 : List (HloOp τ sig (Elt F)) :=
  [ binary main_v44 main_arg5 main_v45 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)) ]

/-- Operations 61–72: The in-degree and its guarded inverse square root, computed again. -/
abbrev s4a : List (HloOp τ sig (Elt F)) :=
  [ nullary main_cst_8 (constant S_ .f32 0x00000000#32),
    unary main_cst_8 main_v46 (broadcastInDim S50000 ![] bcast_S_S50000 : (⟨S_, .f32⟩ : BufTy).Contents (Elt F) → (⟨S50000, .f32⟩ : BufTy).Contents (Elt F)),
    unary main_v3 main_v47 (broadcastInDim S800000x1 ![0] bcast_S800000_S800000x1_0 : (⟨S800000, .i32⟩ : BufTy).Contents (Elt F) → (⟨S800000x1, .i32⟩ : BufTy).Contents (Elt F)),
    ternary main_v46 main_v47 main_arg2 main_v48 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x00000000#32),
    unary main_cst_9 main_v49 (broadcastInDim S50000 ![] bcast_S_S50000 : (⟨S_, .f32⟩ : BufTy).Contents (Elt F) → (⟨S50000, .f32⟩ : BufTy).Contents (Elt F)),
    binary main_v48 main_v49 main_v50 (cmpf .ogt : (⟨S50000, .f32⟩ : BufTy).Contents (Elt F) → (⟨S50000, .f32⟩ : BufTy).Contents (Elt F) → (⟨S50000, .i1⟩ : BufTy).Contents (Elt F)),
    unary main_v48 main_v51 (Host.rsqrt : (⟨S50000, .f32⟩ : BufTy).Contents (Elt F) → (⟨S50000, .f32⟩ : BufTy).Contents (Elt F)),
    nullary main_cst_10 (constant S_ .f32 0x00000000#32),
    TRef.unary (TRef.of (T := ⟨S_, .f32⟩) main_cst_10) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v50) (TRef.of (T := ⟨S50000, .f32⟩) main_v51) (TRef.of (T := ⟨S50000, .f32⟩) main_call2_v1) (TRef.of (T := ⟨S50000, .f32⟩) main_v52) select ]

/-- Operations 73–108: The edge coefficients again and the second aggregation. -/
abbrev s4b : List (HloOp τ sig (Elt F)) :=
  [ nullary main_c_11 (constantI S_ 32 0#32),
    unary main_c_11 main_v53 (broadcastInDim S800000 ![] bcast_S_S800000 : (⟨S_, .i32⟩ : BufTy).Contents (Elt F) → (⟨S800000, .i32⟩ : BufTy).Contents (Elt F)),
    binary main_v1 main_v53 main_v54 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v55 (broadcastInDim S800000 ![] bcast_S_S800000 : (⟨S_, .i32⟩ : BufTy).Contents (Elt F) → (⟨S800000, .i32⟩ : BufTy).Contents (Elt F)),
    binary main_v1 main_v55 main_v56 (addi : (⟨S800000, .i32⟩ : BufTy).Contents (Elt F) → (⟨S800000, .i32⟩ : BufTy).Contents (Elt F) → (⟨S800000, .i32⟩ : BufTy).Contents (Elt F)),
    ternary main_v54 main_v56 main_v1 main_v57 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v57 main_v58 (broadcastInDim S800000x1 ![0] bcast_S800000_S800000x1_0 : (⟨S800000, .i32⟩ : BufTy).Contents (Elt F) → (⟨S800000x1, .i32⟩ : BufTy).Contents (Elt F)),
    binary main_v52 main_v58 main_v59 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v59 main_arg2 main_v60 (mulf : (⟨S800000, .f32⟩ : BufTy).Contents (Elt F) → (⟨S800000, .f32⟩ : BufTy).Contents (Elt F) → (⟨S800000, .f32⟩ : BufTy).Contents (Elt F)),
    nullary main_c_13 (constantI S_ 32 0#32),
    unary main_c_13 main_v61 (broadcastInDim S800000 ![] bcast_S_S800000 : (⟨S_, .i32⟩ : BufTy).Contents (Elt F) → (⟨S800000, .i32⟩ : BufTy).Contents (Elt F)),
    binary main_v3 main_v61 main_v62 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v63 (broadcastInDim S800000 ![] bcast_S_S800000 : (⟨S_, .i32⟩ : BufTy).Contents (Elt F) → (⟨S800000, .i32⟩ : BufTy).Contents (Elt F)),
    binary main_v3 main_v63 main_v64 (addi : (⟨S800000, .i32⟩ : BufTy).Contents (Elt F) → (⟨S800000, .i32⟩ : BufTy).Contents (Elt F) → (⟨S800000, .i32⟩ : BufTy).Contents (Elt F)),
    ternary main_v62 main_v64 main_v3 main_v65 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v65 main_v66 (broadcastInDim S800000x1 ![0] bcast_S800000_S800000x1_0 : (⟨S800000, .i32⟩ : BufTy).Contents (Elt F) → (⟨S800000x1, .i32⟩ : BufTy).Contents (Elt F)),
    binary main_v52 main_v66 main_v67 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v60 main_v67 main_v68 (mulf : (⟨S800000, .f32⟩ : BufTy).Contents (Elt F) → (⟨S800000, .f32⟩ : BufTy).Contents (Elt F) → (⟨S800000, .f32⟩ : BufTy).Contents (Elt F)),
    unary main_v68 main_v69 (broadcastInDim S800000x1 ![0] bcast_S800000_S800000x1_0 : (⟨S800000, .f32⟩ : BufTy).Contents (Elt F) → (⟨S800000x1, .f32⟩ : BufTy).Contents (Elt F)),
    nullary main_c_15 (constantI S_ 32 0#32),
    unary main_c_15 main_v70 (broadcastInDim S800000 ![] bcast_S_S800000 : (⟨S_, .i32⟩ : BufTy).Contents (Elt F) → (⟨S800000, .i32⟩ : BufTy).Contents (Elt F)),
    binary main_v1 main_v70 main_v71 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v72 (broadcastInDim S800000 ![] bcast_S_S800000 : (⟨S_, .i32⟩ : BufTy).Contents (Elt F) → (⟨S800000, .i32⟩ : BufTy).Contents (Elt F)),
    binary main_v1 main_v72 main_v73 (addi : (⟨S800000, .i32⟩ : BufTy).Contents (Elt F) → (⟨S800000, .i32⟩ : BufTy).Contents (Elt F) → (⟨S800000, .i32⟩ : BufTy).Contents (Elt F)),
    ternary main_v71 main_v73 main_v1 main_v74 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v74 main_v75 (broadcastInDim S800000x1 ![0] bcast_S800000_S800000x1_0 : (⟨S800000, .i32⟩ : BufTy).Contents (Elt F) → (⟨S800000x1, .i32⟩ : BufTy).Contents (Elt F)),
    binary main_v45 main_v75 main_v76 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_v69 main_v77 (broadcastInDim S800000x16 ![0, 1] bcast_S800000x1_S800000x16_0_1 : (⟨S800000x1, .f32⟩ : BufTy).Contents (Elt F) → (⟨S800000x16, .f32⟩ : BufTy).Contents (Elt F)),
    binary main_v77 main_v76 main_v78 (mulf : (⟨S800000x16, .f32⟩ : BufTy).Contents (Elt F) → (⟨S800000x16, .f32⟩ : BufTy).Contents (Elt F) → (⟨S800000x16, .f32⟩ : BufTy).Contents (Elt F)),
    nullary main_cst_17 (constant S_ .f32 0x00000000#32),
    unary main_cst_17 main_v79 (broadcastInDim S50000x16 ![] bcast_S_S50000x16 : (⟨S_, .f32⟩ : BufTy).Contents (Elt F) → (⟨S50000x16, .f32⟩ : BufTy).Contents (Elt F)),
    unary main_v3 main_v80 (broadcastInDim S800000x1 ![0] bcast_S800000_S800000x1_0 : (⟨S800000, .i32⟩ : BufTy).Contents (Elt F) → (⟨S800000x1, .i32⟩ : BufTy).Contents (Elt F)),
    ternary main_v79 main_v80 main_v78 main_v81 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)) ]

/-- Operations 109–111: The second bias. -/
abbrev s5 : List (HloOp τ sig (Elt F)) :=
  [ unary main_arg6 main_v82 (broadcastInDim S1x16 ![1] bcast_S16_S1x16_1 : (⟨S16, .f32⟩ : BufTy).Contents (Elt F) → (⟨S1x16, .f32⟩ : BufTy).Contents (Elt F)),
    unary main_v82 main_v83 (broadcastInDim S50000x16 ![0, 1] bcast_S1x16_S50000x16_0_1 : (⟨S1x16, .f32⟩ : BufTy).Contents (Elt F) → (⟨S50000x16, .f32⟩ : BufTy).Contents (Elt F)),
    binary main_v81 main_v83 main_v84 (addf : (⟨S50000x16, .f32⟩ : BufTy).Contents (Elt F) → (⟨S50000x16, .f32⟩ : BufTy).Contents (Elt F) → (⟨S50000x16, .f32⟩ : BufTy).Contents (Elt F)) ]

/-- Operations 112–126: The row-wise log-softmax. -/
abbrev s6 : List (HloOp τ sig (Elt F)) :=
  [ TRef.nullary (TRef.of (T := ⟨S_, .f32⟩) main_call3_cst) (constant S_ .f32 0xFF800000#32),
    TRef.binary (TRef.of (T := ⟨S50000x16, .f32⟩) main_v84) (TRef.of (T := ⟨S_, .f32⟩) main_call3_cst) (TRef.of (T := ⟨S50000, .f32⟩) main_call3_v0) (fun x v => Host.reduce FloatOps.maximumf x v reducesTo_S50000x16_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x16, .f32⟩) main_call3_v4) (broadcastInDim S50000x16 ![0, 1] bcast_S50000x1_S50000x16_0_1),
    TRef.binary (TRef.of (T := ⟨S50000x16, .f32⟩) main_v84) (TRef.of (T := ⟨S50000x16, .f32⟩) main_call3_v4) (TRef.of (T := ⟨S50000x16, .f32⟩) main_call3_v5) subf,
    TRef.unary (TRef.of (T := ⟨S50000x16, .f32⟩) main_call3_v5) (TRef.of (T := ⟨S50000x16, .f32⟩) main_call3_v6) Host.exp,
    TRef.nullary (TRef.of (T := ⟨S_, .f32⟩) main_call3_cst_1) (constant S_ .f32 0x00000000#32),
    TRef.binary (TRef.of (T := ⟨S50000x16, .f32⟩) main_call3_v6) (TRef.of (T := ⟨S_, .f32⟩) main_call3_cst_1) (TRef.of (T := ⟨S50000, .f32⟩) main_call3_v7) (fun x v => Host.reduceAdd x v reducesTo_S50000x16_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x16, .f32⟩) main_call3_v10) (broadcastInDim S50000x16 ![0, 1] bcast_S50000x1_S50000x16_0_1),
    TRef.binary (TRef.of (T := ⟨S50000x16, .f32⟩) main_call3_v5) (TRef.of (T := ⟨S50000x16, .f32⟩) main_call3_v10) (TRef.of (T := ⟨S50000x16, .f32⟩) main_v85) subf ]

set_option maxRecDepth 8192 in
/-- The program's operation list is the eight stretches one after the other. -/
theorem ops_split : (ops : List (HloOp τ sig (Elt F))) = s0 ++ s1 ++ s2 ++ s3 ++ s4a ++ s4b ++ s5 ++ s6 := rfl

end Cert.ReferenceIdeal.Stretch

end
-- ==== Proof.LibHostFold.lean ====
/-
  The contents a device's buffers hold after a line of host operations is a left fold of the operations' results over the
  contents it started from; so the fold over a concatenation is the fold over the second line, started from the fold over
  the first. This lets a long host program be read stretch by stretch, each from the contents the one before left.
-/
import Idealize.ShloMosaic.Lib.StableHlo.Run

namespace Idealize.ShloMosaic.StableHlo

variable {nD : Nat} {τ : Topo} {sig : RefSig} {Val : EltTy → Type}

/-- The fold over `l₁ ++ l₂` is the fold over `l₂` from what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.StageA.lean ====
/-
  The first stretch of the two host programs, compared. Both slice the two rows out of the edge list, and both form the
  in-degree deg[n] = Σ_{e : col e = n} w_e by an accumulating scatter into zeros and its guarded inverse square root
  (deg > 0 ? deg^(-1/2) : 0) with the same operations in the same order; started from contents that agree on the edge
  list and the weights they end with the same rows, the same column and the same inverse-square-root vector. The
  reference also forms its first dense product x·W1 here, one whole dot_general. Neither stretch writes an argument array.
-/
import proofs.«126643_j78889959292957_1_alg».proof.Proof.Gen.KernelIdeal.Launch
import proofs.«126643_j78889959292957_1_alg».proof.Proof.RefStretches
import proofs.«126643_j78889959292957_1_alg».proof.Proof.Region0
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe Idealize.SL.Sem Idealize.ShloMosaic.StableHlo

/-- The reference's buffer contents on one device, and the kernel's. -/
local notation "RVal" => Valuation Cert.ReferenceIdeal.τ Cert.ReferenceIdeal.sig (Elt Ideal)
local notation "KVal" => Valuation τ sig (Elt Ideal)

variable (RV : RVal) (KV : KVal)

open Cert.KernelIdeal.Hand

/-- The row of source indices. -/
theorem stage0_row (h1 : RV (Proc.devRef .tc Cert.ReferenceIdeal.main_arg1) = KV (Proc.devRef .tc main_arg1)) :
    after (Cert.ReferenceIdeal.Stretch.s0 (F := Ideal)) RV (Proc.devRef .tc Cert.ReferenceIdeal.main_v1) = after (hostOps0_1 (F := Ideal)) (after hostOps0 KV) (Proc.devRef .tc main_v1) := by
  after_results_simp
  rw [h1]
  rfl

/-- The row of target indices. -/
theorem stage0_col (h1 : RV (Proc.devRef .tc Cert.ReferenceIdeal.main_arg1) = KV (Proc.devRef .tc main_arg1)) :
    after (Cert.ReferenceIdeal.Stretch.s0 (F := Ideal)) RV (Proc.devRef .tc Cert.ReferenceIdeal.main_v3) = after (hostOps0_1 (F := Ideal)) (after hostOps0 KV) (Proc.devRef .tc main_v3) := by
  after_results_simp
  rw [h1]
  rfl

/-- The guarded inverse square root of the in-degree. -/
theorem stage0_dinv (h1 : RV (Proc.devRef .tc Cert.ReferenceIdeal.main_arg1) = KV (Proc.devRef .tc main_arg1)) (h2 : RV (Proc.devRef .tc Cert.ReferenceIdeal.main_arg2) = KV (Proc.devRef .tc main_arg2)) :
    after (Cert.ReferenceIdeal.Stretch.s0 (F := Ideal)) RV (Proc.devRef .tc Cert.ReferenceIdeal.main_v11) = after (hostOps0_1 (F := Ideal)) (after hostOps0 KV) (Proc.devRef .tc main_v10) := by
  after_results_simp
  rw [h1, h2]
  rfl

/-- The reference's first dense product is the whole product of the two argument arrays. -/
theorem stage0_mm (h0 : RV (Proc.devRef .tc Cert.ReferenceIdeal.main_arg0) = KV (Proc.devRef .tc main_arg0)) (h3 : RV (Proc.devRef .tc Cert.ReferenceIdeal.main_arg3) = KV (Proc.devRef .tc main_arg3)) :
    after (Cert.ReferenceIdeal.Stretch.s0 (F := Ideal)) RV (Proc.devRef .tc Cert.ReferenceIdeal.main_v4) = G0 (KV (Proc.devRef .tc main_arg0)) (KV (Proc.devRef .tc main_arg3)) := by
  after_results_simp
  rw [h0, h3]
  rfl

/-! Neither stretch writes an argument array. -/
theorem host0_arg0 : after (hostOps0_1 (F := Ideal)) (after hostOps0 KV) (Proc.devRef .tc main_arg0) = KV (Proc.devRef .tc main_arg0) := by
  after_results_simp
theorem host0_arg2 : after (hostOps0_1 (F := Ideal)) (after hostOps0 KV) (Proc.devRef .tc main_arg2) = KV (Proc.devRef .tc main_arg2) := by
  after_results_simp
theorem host0_arg3 : after (hostOps0_1 (F := Ideal)) (after hostOps0 KV) (Proc.devRef .tc main_arg3) = KV (Proc.devRef .tc main_arg3) := by
  after_results_simp
theorem host0_arg4 : after (hostOps0_1 (F := Ideal)) (after hostOps0 KV) (Proc.devRef .tc main_arg4) = KV (Proc.devRef .tc main_arg4) := by
  after_results_simp
theorem host0_arg5 : after (hostOps0_1 (F := Ideal)) (after hostOps0 KV) (Proc.devRef .tc main_arg5) = KV (Proc.devRef .tc main_arg5) := by
  after_results_simp
theorem host0_arg6 : after (hostOps0_1 (F := Ideal)) (after hostOps0 KV) (Proc.devRef .tc main_arg6) = KV (Proc.devRef .tc main_arg6) := by
  after_results_simp
theorem s0_arg2 : after (Cert.ReferenceIdeal.Stretch.s0 (F := Ideal)) RV (Proc.devRef .tc Cert.ReferenceIdeal.main_arg2) = RV (Proc.devRef .tc Cert.ReferenceIdeal.main_arg2) := by
  after_results_simp
theorem s0_arg4 : after (Cert.ReferenceIdeal.Stretch.s0 (F := Ideal)) RV (Proc.devRef .tc Cert.ReferenceIdeal.main_arg4) = RV (Proc.devRef .tc Cert.ReferenceIdeal.main_arg4) := by
  after_results_simp
theorem s0_arg5 : after (Cert.ReferenceIdeal.Stretch.s0 (F := Ideal)) RV (Proc.devRef .tc Cert.ReferenceIdeal.main_arg5) = RV (Proc.devRef .tc Cert.ReferenceIdeal.main_arg5) := by
  after_results_simp
theorem s0_arg6 : after (Cert.ReferenceIdeal.Stretch.s0 (F := Ideal)) RV (Proc.devRef .tc Cert.ReferenceIdeal.main_arg6) = RV (Proc.devRef .tc Cert.ReferenceIdeal.main_arg6) := by
  after_results_simp

end Cert.Bridge

end
-- ==== Proof.StageB.lean ====
/-
  The aggregation stretches of the two host programs, compared. Both form the edge coefficients
  coef_e = dinv[row e] · w_e · dinv[col e] (negative indices wrapped by +50000 before each gather), scale the gathered rows
  h[row e] by them, and accumulate into zeros at col e: agg[n] = Σ_{e : col e = n} coef_e · h[row e] — the same operations in
  the same order, so from contents that agree on the index rows, the weights, the inverse-square-root vector and the array
  h they end with the same aggregate. This holds for the 128-column aggregation of the first layer and the 16-column one of
  the second; before the second the reference recomputes the degree and its inverse square root from the same column and
  weights, where the kernel's program keeps the vector it formed at the start: the same term.
-/
import proofs.«126643_j78889959292957_1_alg».proof.Proof.Gen.KernelIdeal.Launch
import proofs.«126643_j78889959292957_1_alg».proof.Proof.RefStretches
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe Idealize.SL.Sem Idealize.ShloMosaic.StableHlo

/-- The reference's buffer contents on one device, and the kernel's. -/
local notation "RVal" => Valuation Cert.ReferenceIdeal.τ Cert.ReferenceIdeal.sig (Elt Ideal)
local notation "KVal" => Valuation τ sig (Elt Ideal)

variable (RV : RVal) (KV : KVal)

/-- The first aggregation. -/
theorem stage1 (h1 : RV (Proc.devRef .tc Cert.ReferenceIdeal.main_v1) = KV (Proc.devRef .tc main_v1)) (h3 : RV (Proc.devRef .tc Cert.ReferenceIdeal.main_v3) = KV (Proc.devRef .tc main_v3)) (hd : RV (Proc.devRef .tc Cert.ReferenceIdeal.main_v11) = KV (Proc.devRef .tc main_v10))
    (h2 : RV (Proc.devRef .tc Cert.ReferenceIdeal.main_arg2) = KV (Proc.devRef .tc main_arg2)) (hh : RV (Proc.devRef .tc Cert.ReferenceIdeal.main_v4) = KV (Proc.devRef .tc main_v11)) :
    after (Cert.ReferenceIdeal.Stretch.s1 (F := Ideal)) RV (Proc.devRef .tc Cert.ReferenceIdeal.main_v40) = after (hostOps1 (F := Ideal)) KV (Proc.devRef .tc main_v40) := by
  after_results_simp
  rw [h1, h3, hd, h2, hh]
  rfl

/-- The inverse square root of the in-degree, computed again by the reference, is the vector the kernel's program formed at its start. -/
theorem stage4a (KV0 : KVal) (h3 : RV (Proc.devRef .tc Cert.ReferenceIdeal.main_v3) = after (hostOps0_1 (F := Ideal)) (after hostOps0 KV0) (Proc.devRef .tc main_v3))
    (h2 : RV (Proc.devRef .tc Cert.ReferenceIdeal.main_arg2) = KV0 (Proc.devRef .tc main_arg2)) :
    after (Cert.ReferenceIdeal.Stretch.s4a (F := Ideal)) RV (Proc.devRef .tc Cert.ReferenceIdeal.main_v52) = after (hostOps0_1 (F := Ideal)) (after hostOps0 KV0) (Proc.devRef .tc main_v10) := by
  after_results_simp
  rw [h3, h2]
  after_results_simp
  rfl

/-- The second aggregation. -/
theorem stage4b (h1 : RV (Proc.devRef .tc Cert.ReferenceIdeal.main_v1) = KV (Proc.devRef .tc main_v1)) (h3 : RV (Proc.devRef .tc Cert.ReferenceIdeal.main_v3) = KV (Proc.devRef .tc main_v3)) (hd : RV (Proc.devRef .tc Cert.ReferenceIdeal.main_v52) = KV (Proc.devRef .tc main_v10))
    (h2 : RV (Proc.devRef .tc Cert.ReferenceIdeal.main_arg2) = KV (Proc.devRef .tc main_arg2)) (hh : RV (Proc.devRef .tc Cert.ReferenceIdeal.main_v45) = KV (Proc.devRef .tc main_v43)) :
    after (Cert.ReferenceIdeal.Stretch.s4b (F := Ideal)) RV (Proc.devRef .tc Cert.ReferenceIdeal.main_v81) = after (hostOps3 (F := Ideal)) KV (Proc.devRef .tc main_v72) := by
  after_results_simp
  rw [h1, h3, hd, h2, hh]
  rfl

/-! What the kernel's two later stretches leave untouched, and the bias rows they lay out. -/
theorem host1_v1 : after (hostOps1 (F := Ideal)) KV (Proc.devRef .tc main_v1) = KV (Proc.devRef .tc main_v1) := by
  after_results_simp
theorem host1_v3 : after (hostOps1 (F := Ideal)) KV (Proc.devRef .tc main_v3) = KV (Proc.devRef .tc main_v3) := by
  after_results_simp
theorem host1_v10 : after (hostOps1 (F := Ideal)) KV (Proc.devRef .tc main_v10) = KV (Proc.devRef .tc main_v10) := by
  after_results_simp
theorem host1_arg2 : after (hostOps1 (F := Ideal)) KV (Proc.devRef .tc main_arg2) = KV (Proc.devRef .tc main_arg2) := by
  after_results_simp
theorem host1_arg5 : after (hostOps1 (F := Ideal)) KV (Proc.devRef .tc main_arg5) = KV (Proc.devRef .tc main_arg5) := by
  after_results_simp
theorem host1_arg6 : after (hostOps1 (F := Ideal)) KV (Proc.devRef .tc main_arg6) = KV (Proc.devRef .tc main_arg6) := by
  after_results_simp

/-- The first bias, reshaped to a row. -/
theorem host1_bias : (after (hostOps1 (F := Ideal)) KV (Proc.devRef .tc main_v41) : S1x128.Idx → Elt Ideal .f32) = shapeCast S1x128 (KV (Proc.devRef .tc main_arg4)) (by decide) := by
  after_results_simp
  rfl

/-- The second bias, reshaped to a row. -/
theorem host3_bias : (after (hostOps3 (F := Ideal)) KV (Proc.devRef .tc main_v73) : S1x16.Idx → Elt Ideal .f32) = shapeCast S1x16 (KV (Proc.devRef .tc main_arg6)) (by decide) := by
  after_results_simp
  rfl

end Cert.Bridge

end
-- ==== Proof.LibTypedRef.lean ====
/-
  A typed reference pairs a buffer with the contents type its values have; contents are carried to the buffer's own
  type and back along the equation between the two types.
-/
import Idealize.ShloMosaic.Lib.StableHlo

namespace Idealize.ShloMosaic.StableHlo.TRef

/-- Carrying contents of the stated type to the buffer's own type and back changes nothing: both transports are along
    one equation of types, in opposite directions. -/
theorem ofBuf_toBuf {sig : RefSig} {Val : EltTy → Type} {T : BufTy} (x : TRef sig T) (v : T.Contents Val) :
    x.ofBuf (x.toBuf v) = v := by
  obtain ⟨r, ty_eq, od, us⟩ := x
  subst ty_eq
  rfl

end Idealize.ShloMosaic.StableHlo.TRef
-- ==== Proof.StageC.lean ====
/-
  The reference's remaining stretches, each as the whole-array form the kernel's regions were read at: the bias laid along
  the rows, added, and the maximum with zero; the second dense product; the second bias laid along the rows and added; and
  the row-wise log-softmax (row maximum from −∞, subtraction, exponentials, row sum from 0, logarithm, subtraction). Each is
  the stretch's own operations, read off its fold; the outlined functions' values pass through typed references, which
  change nothing. And what each of the reference's stretches leaves untouched.
-/
import proofs.«126643_j78889959292957_1_alg».proof.Proof.Gen.KernelIdeal.Launch
import proofs.«126643_j78889959292957_1_alg».proof.Proof.RefStretches
import proofs.«126643_j78889959292957_1_alg».proof.Proof.Region1
import proofs.«126643_j78889959292957_1_alg».proof.Proof.Region2
import proofs.«126643_j78889959292957_1_alg».proof.Proof.Region3
import proofs.«126643_j78889959292957_1_alg».proof.Proof.LibTypedRef
import Idealize.ShloMosaic.Lib.StableHlo.Run
import Idealize.ShloMosaic.PureOps.Ideal

set_option maxRecDepth 16384

noncomputable section

namespace Cert.Bridge

open Cert.KernelIdeal Cert.KernelIdeal.Gen
open Idealize.ShloMosaic Idealize.ShloMosaic.TcCoe Idealize.SL.Sem Idealize.ShloMosaic.StableHlo

/-- The reference's buffer contents on one device, and the kernel's. -/
local notation "RVal" => Valuation Cert.ReferenceIdeal.τ Cert.ReferenceIdeal.sig (Elt Ideal)
local notation "KVal" => Valuation τ sig (Elt Ideal)

variable (RV : RVal) (KV : KVal)

open Cert.KernelIdeal.Hand

/-- The first bias and the rectification. -/
theorem stage2 (a : S50000x128.Idx → Elt Ideal .f32) (b : S128.Idx → Elt Ideal .f32)
    (h40 : RV (Proc.devRef .tc Cert.ReferenceIdeal.main_v40) = a) (h4 : RV (Proc.devRef .tc Cert.ReferenceIdeal.main_arg4) = b) :
    after (Cert.ReferenceIdeal.Stretch.s2 (F := Ideal)) RV (Proc.devRef .tc Cert.ReferenceIdeal.main_v44) = G1 a b := by
  after_results_simp
  rw [h40, h4]
  rfl

/-- The second dense product. -/
theorem stage3 (a : S50000x128.Idx → Elt Ideal .f32) (w : S128x16.Idx → Elt Ideal .f32)
    (h44 : RV (Proc.devRef .tc Cert.ReferenceIdeal.main_v44) = a) (h5 : RV (Proc.devRef .tc Cert.ReferenceIdeal.main_arg5) = w) :
    after (Cert.ReferenceIdeal.Stretch.s3 (F := Ideal)) RV (Proc.devRef .tc Cert.ReferenceIdeal.main_v45) = G2 a w := by
  after_results_simp
  rw [h44, h5]
  rfl

/-- The second bias. -/
theorem stage5 (a : FVec Ideal S50000x16 .f32) (b : FVec Ideal S16 .f32)
    (h81 : RV (Proc.devRef .tc Cert.ReferenceIdeal.main_v81) = a) (h6 : RV (Proc.devRef .tc Cert.ReferenceIdeal.main_arg6) = b) :
    after (Cert.ReferenceIdeal.Stretch.s5 (F := Ideal)) RV (Proc.devRef .tc Cert.ReferenceIdeal.main_v84) = hBias a b := by
  after_results_simp
  rw [h81, h6]
  rfl

/-- The row-wise log-softmax. -/
theorem stage6 (y : FVec Ideal S50000x16 .f32) (h84 : RV (Proc.devRef .tc Cert.ReferenceIdeal.main_v84) = y) :
    after (Cert.ReferenceIdeal.Stretch.s6 (F := Ideal)) RV (Proc.devRef .tc Cert.ReferenceIdeal.main_v85) = hLogSum (hShift y) := by
  after_results_simp
  simp only [TRef.ofBuf_toBuf]
  rw [h84]
  rfl

/-! What each stretch leaves untouched. -/
theorem s1_v1 : after (Cert.ReferenceIdeal.Stretch.s1 (F := Ideal)) RV (Proc.devRef .tc Cert.ReferenceIdeal.main_v1) = RV (Proc.devRef .tc Cert.ReferenceIdeal.main_v1) := by
  after_results_simp
theorem s1_v3 : after (Cert.ReferenceIdeal.Stretch.s1 (F := Ideal)) RV (Proc.devRef .tc Cert.ReferenceIdeal.main_v3) = RV (Proc.devRef .tc Cert.ReferenceIdeal.main_v3) := by
  after_results_simp
theorem s1_arg2 : after (Cert.ReferenceIdeal.Stretch.s1 (F := Ideal)) RV (Proc.devRef .tc Cert.ReferenceIdeal.main_arg2) = RV (Proc.devRef .tc Cert.ReferenceIdeal.main_arg2) := by
  after_results_simp
theorem s1_arg4 : after (Cert.ReferenceIdeal.Stretch.s1 (F := Ideal)) RV (Proc.devRef .tc Cert.ReferenceIdeal.main_arg4) = RV (Proc.devRef .tc Cert.ReferenceIdeal.main_arg4) := by
  after_results_simp
theorem s1_arg5 : after (Cert.ReferenceIdeal.Stretch.s1 (F := Ideal)) RV (Proc.devRef .tc Cert.ReferenceIdeal.main_arg5) = RV (Proc.devRef .tc Cert.ReferenceIdeal.main_arg5) := by
  after_results_simp
theorem s1_arg6 : after (Cert.ReferenceIdeal.Stretch.s1 (F := Ideal)) RV (Proc.devRef .tc Cert.ReferenceIdeal.main_arg6) = RV (Proc.devRef .tc Cert.ReferenceIdeal.main_arg6) := by
  after_results_simp
theorem s2_v1 : after (Cert.ReferenceIdeal.Stretch.s2 (F := Ideal)) RV (Proc.devRef .tc Cert.ReferenceIdeal.main_v1) = RV (Proc.devRef .tc Cert.ReferenceIdeal.main_v1) := by
  after_results_simp
theorem s2_v3 : after (Cert.ReferenceIdeal.Stretch.s2 (F := Ideal)) RV (Proc.devRef .tc Cert.ReferenceIdeal.main_v3) = RV (Proc.devRef .tc Cert.ReferenceIdeal.main_v3) := by
  after_results_simp
theorem s2_arg2 : after (Cert.ReferenceIdeal.Stretch.s2 (F := Ideal)) RV (Proc.devRef .tc Cert.ReferenceIdeal.main_arg2) = RV (Proc.devRef .tc Cert.ReferenceIdeal.main_arg2) := by
  after_results_simp
theorem s2_arg5 : after (Cert.ReferenceIdeal.Stretch.s2 (F := Ideal)) RV (Proc.devRef .tc Cert.ReferenceIdeal.main_arg5) = RV (Proc.devRef .tc Cert.ReferenceIdeal.main_arg5) := by
  after_results_simp
theorem s2_arg6 : after (Cert.ReferenceIdeal.Stretch.s2 (F := Ideal)) RV (Proc.devRef .tc Cert.ReferenceIdeal.main_arg6) = RV (Proc.devRef .tc Cert.ReferenceIdeal.main_arg6) := by
  after_results_simp
theorem s3_v1 : after (Cert.ReferenceIdeal.Stretch.s3 (F := Ideal)) RV (Proc.devRef .tc Cert.ReferenceIdeal.main_v1) = RV (Proc.devRef .tc Cert.ReferenceIdeal.main_v1) := by
  after_results_simp
theorem s3_v3 : after (Cert.ReferenceIdeal.Stretch.s3 (F := Ideal)) RV (Proc.devRef .tc Cert.ReferenceIdeal.main_v3) = RV (Proc.devRef .tc Cert.ReferenceIdeal.main_v3) := by
  after_results_simp
theorem s3_arg2 : after (Cert.ReferenceIdeal.Stretch.s3 (F := Ideal)) RV (Proc.devRef .tc Cert.ReferenceIdeal.main_arg2) = RV (Proc.devRef .tc Cert.ReferenceIdeal.main_arg2) := by
  after_results_simp
theorem s3_arg6 : after (Cert.ReferenceIdeal.Stretch.s3 (F := Ideal)) RV (Proc.devRef .tc Cert.ReferenceIdeal.main_arg6) = RV (Proc.devRef .tc Cert.ReferenceIdeal.main_arg6) := by
  after_results_simp
theorem s4a_v1 : after (Cert.ReferenceIdeal.Stretch.s4a (F := Ideal)) RV (Proc.devRef .tc Cert.ReferenceIdeal.main_v1) = RV (Proc.devRef .tc Cert.ReferenceIdeal.main_v1) := by
  after_results_simp
theorem s4a_v3 : after (Cert.ReferenceIdeal.Stretch.s4a (F := Ideal)) RV (Proc.devRef .tc Cert.ReferenceIdeal.main_v3) = RV (Proc.devRef .tc Cert.ReferenceIdeal.main_v3) := by
  after_results_simp
theorem s4a_arg2 : after (Cert.ReferenceIdeal.Stretch.s4a (F := Ideal)) RV (Proc.devRef .tc Cert.ReferenceIdeal.main_arg2) = RV (Proc.devRef .tc Cert.ReferenceIdeal.main_arg2) := by
  after_results_simp
theorem s4a_arg6 : after (Cert.ReferenceIdeal.Stretch.s4a (F := Ideal)) RV (Proc.devRef .tc Cert.ReferenceIdeal.main_arg6) = RV (Proc.devRef .tc Cert.ReferenceIdeal.main_arg6) := by
  after_results_simp
theorem s4a_v45 : after (Cert.ReferenceIdeal.Stretch.s4a (F := Ideal)) RV (Proc.devRef .tc Cert.ReferenceIdeal.main_v45) = RV (Proc.devRef .tc Cert.ReferenceIdeal.main_v45) := by
  after_results_simp
theorem s4b_arg6 : after (Cert.ReferenceIdeal.Stretch.s4b (F := Ideal)) RV (Proc.devRef .tc Cert.ReferenceIdeal.main_arg6) = RV (Proc.devRef .tc Cert.ReferenceIdeal.main_arg6) := by
  after_results_simp

end Cert.Bridge

end
-- ==== Proof.Bridge.lean ====
/-
  The idealized kernel's result is the reference's. The kernel's program is four pipelined regions among host stretches,
  its buffer contents threaded through the segment boundaries W0 … W8; the reference is one host program, read in eight
  stretches from its launch contents. Stage by stage the two hold the same arrays:
    * both slice the same index rows and form the same inverse-square-root vector of the in-degree;
    * region 0 leaves the whole product x·W1, which is the reference's first dot_general;
    * the first aggregation is the same chain of host operations on equal operands;
    * region 1 leaves max(agg + b1, 0), the reference's bias and rectification;
    * region 2 leaves the whole product h·W2, the reference's second dot_general;
    * the reference recomputes the inverse-square-root vector: the same term the kernel's program kept;
    * the second aggregation is again the same chain on equal operands;
    * region 3 leaves the row-wise log-softmax of agg + b2, the reference's bias and log-softmax.
  Nothing here asks the inputs to be finite: at every stage the two sides apply the same operations to the same values.
-/
import proofs.«126643_j78889959292957_1_alg».proof.Proof.Gen.KernelIdeal.Frame
import proofs.«126643_j78889959292957_1_alg».proof.Proof.Region0
import proofs.«126643_j78889959292957_1_alg».proof.Proof.Region1
import proofs.«126643_j78889959292957_1_alg».proof.Proof.Region2
import proofs.«126643_j78889959292957_1_alg».proof.Proof.Region3
import proofs.«126643_j78889959292957_1_alg».proof.Proof.RefStretches
import proofs.«126643_j78889959292957_1_alg».proof.Proof.LibHostFold
import proofs.«126643_j78889959292957_1_alg».proof.Proof.StageA
import proofs.«126643_j78889959292957_1_alg».proof.Proof.StageB
import proofs.«126643_j78889959292957_1_alg».proof.Proof.StageC

set_option maxRecDepth 16384

noncomputable section

namespace Cert.Bridge

open Cert.KernelIdeal Cert.KernelIdeal.Gen Cert.KernelIdeal.Hand
open Idealize.ShloMosaic Idealize.ShloMosaic.TcCoe Idealize.SL.Sem Idealize.ShloMosaic.StableHlo

local notation "RVal" => Valuation Cert.ReferenceIdeal.τ Cert.ReferenceIdeal.sig (Elt Ideal)

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ) (c : Dev nD)

/-! ## The reference's contents after each stretch -/

abbrev L : RVal := launchContents m' c
abbrev R0 : RVal := after (Cert.ReferenceIdeal.Stretch.s0 (F := Ideal)) (L m' c)
abbrev R1 : RVal := after (Cert.ReferenceIdeal.Stretch.s1 (F := Ideal)) (R0 m' c)
abbrev R2 : RVal := after (Cert.ReferenceIdeal.Stretch.s2 (F := Ideal)) (R1 m' c)
abbrev R3 : RVal := after (Cert.ReferenceIdeal.Stretch.s3 (F := Ideal)) (R2 m' c)
abbrev R4a : RVal := after (Cert.ReferenceIdeal.Stretch.s4a (F := Ideal)) (R3 m' c)
abbrev R4b : RVal := after (Cert.ReferenceIdeal.Stretch.s4b (F := Ideal)) (R4a m' c)
abbrev R5 : RVal := after (Cert.ReferenceIdeal.Stretch.s5 (F := Ideal)) (R4b m' c)
abbrev R6 : RVal := after (Cert.ReferenceIdeal.Stretch.s6 (F := Ideal)) (R5 m' c)

/-- The fold of the whole operation list is the eight stretches' folds, one from the other. -/
theorem refFold : after (Cert.ReferenceIdeal.ValueP.ops (F := Ideal)) (launchContents m' c) = R6 m' c := by
  rw [Cert.ReferenceIdeal.Stretch.ops_split]
  simp only [after_append]

/-! ## The launch contents agree on the arguments -/

section
variable (h0 : m' ((c.tc : Thread Cert.ReferenceIdeal.nD Cert.ReferenceIdeal.τ).loc Cert.ReferenceIdeal.main_arg0) = m ((c.tc : Thread nD τ).loc main_arg0))
  (h1 : m' ((c.tc : Thread Cert.ReferenceIdeal.nD Cert.ReferenceIdeal.τ).loc Cert.ReferenceIdeal.main_arg1) = m ((c.tc : Thread nD τ).loc main_arg1))
  (h2 : m' ((c.tc : Thread Cert.ReferenceIdeal.nD Cert.ReferenceIdeal.τ).loc Cert.ReferenceIdeal.main_arg2) = m ((c.tc : Thread nD τ).loc main_arg2))
  (h3 : m' ((c.tc : Thread Cert.ReferenceIdeal.nD Cert.ReferenceIdeal.τ).loc Cert.ReferenceIdeal.main_arg3) = m ((c.tc : Thread nD τ).loc main_arg3))
  (h4 : m' ((c.tc : Thread Cert.ReferenceIdeal.nD Cert.ReferenceIdeal.τ).loc Cert.ReferenceIdeal.main_arg4) = m ((c.tc : Thread nD τ).loc main_arg4))
  (h5 : m' ((c.tc : Thread Cert.ReferenceIdeal.nD Cert.ReferenceIdeal.τ).loc Cert.ReferenceIdeal.main_arg5) = m ((c.tc : Thread nD τ).loc main_arg5))
  (h6 : m' ((c.tc : Thread Cert.ReferenceIdeal.nD Cert.ReferenceIdeal.τ).loc Cert.ReferenceIdeal.main_arg6) = m ((c.tc : Thread nD τ).loc main_arg6))
include h0 h1 h2 h3 h4 h5 h6

theorem e0 : L m' c (Proc.devRef .tc Cert.ReferenceIdeal.main_arg0) = W0 m ρ c (Proc.devRef .tc main_arg0) := h0
theorem e1 : L m' c (Proc.devRef .tc Cert.ReferenceIdeal.main_arg1) = W0 m ρ c (Proc.devRef .tc main_arg1) := h1
theorem e2 : L m' c (Proc.devRef .tc Cert.ReferenceIdeal.main_arg2) = W0 m ρ c (Proc.devRef .tc main_arg2) := h2
theorem e3 : L m' c (Proc.devRef .tc Cert.ReferenceIdeal.main_arg3) = W0 m ρ c (Proc.devRef .tc main_arg3) := h3
theorem e4 : L m' c (Proc.devRef .tc Cert.ReferenceIdeal.main_arg4) = W0 m ρ c (Proc.devRef .tc main_arg4) := h4
theorem e5 : L m' c (Proc.devRef .tc Cert.ReferenceIdeal.main_arg5) = W0 m ρ c (Proc.devRef .tc main_arg5) := h5
theorem e6 : L m' c (Proc.devRef .tc Cert.ReferenceIdeal.main_arg6) = W0 m ρ c (Proc.devRef .tc main_arg6) := h6

/-! ## Stage 0: the index rows, the inverse square root, the first product -/

theorem r0_v1 : R0 m' c (Proc.devRef .tc Cert.ReferenceIdeal.main_v1) = W2 m ρ c (Proc.devRef .tc main_v1) := stage0_row (L m' c) (W0 m ρ c) (e1 m ρ m' c h0 h1 h2 h3 h4 h5 h6)
theorem r0_v3 : R0 m' c (Proc.devRef .tc Cert.ReferenceIdeal.main_v3) = W2 m ρ c (Proc.devRef .tc main_v3) := stage0_col (L m' c) (W0 m ρ c) (e1 m ρ m' c h0 h1 h2 h3 h4 h5 h6)
theorem r0_dinv : R0 m' c (Proc.devRef .tc Cert.ReferenceIdeal.main_v11) = W2 m ρ c (Proc.devRef .tc main_v10) :=
  stage0_dinv (L m' c) (W0 m ρ c) (e1 m ρ m' c h0 h1 h2 h3 h4 h5 h6) (e2 m ρ m' c h0 h1 h2 h3 h4 h5 h6)
theorem r0_v4 : R0 m' c (Proc.devRef .tc Cert.ReferenceIdeal.main_v4) = G0 (W0 m ρ c (Proc.devRef .tc main_arg0)) (W0 m ρ c (Proc.devRef .tc main_arg3)) :=
  stage0_mm (L m' c) (W0 m ρ c) (e0 m ρ m' c h0 h1 h2 h3 h4 h5 h6) (e3 m ρ m' c h0 h1 h2 h3 h4 h5 h6)

/-- An argument array, through the kernel's first two stretches and the reference's first. -/
theorem r0_arg2 : R0 m' c (Proc.devRef .tc Cert.ReferenceIdeal.main_arg2) = W2 m ρ c (Proc.devRef .tc main_arg2) :=
  ((s0_arg2 (L m' c)).trans (e2 m ρ m' c h0 h1 h2 h3 h4 h5 h6)).trans (host0_arg2 (W0 m ρ c)).symm
theorem r0_arg4 : R0 m' c (Proc.devRef .tc Cert.ReferenceIdeal.main_arg4) = W2 m ρ c (Proc.devRef .tc main_arg4) :=
  ((s0_arg4 (L m' c)).trans (e4 m ρ m' c h0 h1 h2 h3 h4 h5 h6)).trans (host0_arg4 (W0 m ρ c)).symm
theorem r0_arg5 : R0 m' c (Proc.devRef .tc Cert.ReferenceIdeal.main_arg5) = W2 m ρ c (Proc.devRef .tc main_arg5) :=
  ((s0_arg5 (L m' c)).trans (e5 m ρ m' c h0 h1 h2 h3 h4 h5 h6)).trans (host0_arg5 (W0 m ρ c)).symm
theorem r0_arg6 : R0 m' c (Proc.devRef .tc Cert.ReferenceIdeal.main_arg6) = W2 m ρ c (Proc.devRef .tc main_arg6) :=
  ((s0_arg6 (L m' c)).trans (e6 m ρ m' c h0 h1 h2 h3 h4 h5 h6)).trans (host0_arg6 (W0 m ρ c)).symm

/-! ## Region 0 -/

theorem k3_v11 : W3 m ρ c (Proc.devRef .tc main_v11) = G0 (W0 m ρ c (Proc.devRef .tc main_arg0)) (W0 m ρ c (Proc.devRef .tc main_arg3)) := by
  refine ((W3_arr m ρ c 2).trans (final0 (V2 m ρ) c)).trans ?_
  show G0 (W2 m ρ c (Proc.devRef .tc main_arg0)) (W2 m ρ c (Proc.devRef .tc main_arg3)) = _
  rw [show W2 m ρ c (Proc.devRef .tc main_arg0) = W0 m ρ c (Proc.devRef .tc main_arg0) from host0_arg0 (W0 m ρ c),
    show W2 m ρ c (Proc.devRef .tc main_arg3) = W0 m ρ c (Proc.devRef .tc main_arg3) from host0_arg3 (W0 m ρ c)]

theorem k3_v1 : W3 m ρ c (Proc.devRef .tc main_v1) = W2 m ρ c (Proc.devRef .tc main_v1) := W3_of_ne m ρ c main_v1 (by decide)
theorem k3_v3 : W3 m ρ c (Proc.devRef .tc main_v3) = W2 m ρ c (Proc.devRef .tc main_v3) := W3_of_ne m ρ c main_v3 (by decide)
theorem k3_v10 : W3 m ρ c (Proc.devRef .tc main_v10) = W2 m ρ c (Proc.devRef .tc main_v10) := W3_of_ne m ρ c main_v10 (by decide)
theorem k3_arg2 : W3 m ρ c (Proc.devRef .tc main_arg2) = W2 m ρ c (Proc.devRef .tc main_arg2) := W3_of_ne m ρ c main_arg2 (by decide)
theorem k3_arg4 : W3 m ρ c (Proc.devRef .tc main_arg4) = W2 m ρ c (Proc.devRef .tc main_arg4) := W3_of_ne m ρ c main_arg4 (by decide)
theorem k3_arg5 : W3 m ρ c (Proc.devRef .tc main_arg5) = W2 m ρ c (Proc.devRef .tc main_arg5) := W3_of_ne m ρ c main_arg5 (by decide)
theorem k3_arg6 : W3 m ρ c (Proc.devRef .tc main_arg6) = W2 m ρ c (Proc.devRef .tc main_arg6) := W3_of_ne m ρ c main_arg6 (by decide)

/-! ## Stage 1: the first aggregation -/

theorem r1_v40 : R1 m' c (Proc.devRef .tc Cert.ReferenceIdeal.main_v40) = W4 m ρ c (Proc.devRef .tc main_v40) :=
  stage1 (R0 m' c) (W3 m ρ c)
    ((r0_v1 m ρ m' c h0 h1 h2 h3 h4 h5 h6).trans (k3_v1 m ρ m' c h0 h1 h2 h3 h4 h5 h6).symm)
    ((r0_v3 m ρ m' c h0 h1 h2 h3 h4 h5 h6).trans (k3_v3 m ρ m' c h0 h1 h2 h3 h4 h5 h6).symm)
    ((r0_dinv m ρ m' c h0 h1 h2 h3 h4 h5 h6).trans (k3_v10 m ρ m' c h0 h1 h2 h3 h4 h5 h6).symm)
    ((r0_arg2 m ρ m' c h0 h1 h2 h3 h4 h5 h6).trans (k3_arg2 m ρ m' c h0 h1 h2 h3 h4 h5 h6).symm)
    ((r0_v4 m ρ m' c h0 h1 h2 h3 h4 h5 h6).trans (k3_v11 m ρ m' c h0 h1 h2 h3 h4 h5 h6).symm)

/-! ## Region 1 and stage 2: the first bias and the rectification -/

theorem k5_v42 : W5 m ρ c (Proc.devRef .tc main_v42) = G1 (W4 m ρ c (Proc.devRef .tc main_v40)) (W3 m ρ c (Proc.devRef .tc main_arg4)) :=
  (W5_arr m ρ c 2).trans (final1 (V4 m ρ) c (W3 m ρ c (Proc.devRef .tc main_arg4)) (host1_bias (W3 m ρ c)))

theorem r1_arg4 : R1 m' c (Proc.devRef .tc Cert.ReferenceIdeal.main_arg4) = W3 m ρ c (Proc.devRef .tc main_arg4) :=
  ((s1_arg4 (R0 m' c)).trans (r0_arg4 m ρ m' c h0 h1 h2 h3 h4 h5 h6)).trans (k3_arg4 m ρ m' c h0 h1 h2 h3 h4 h5 h6).symm

theorem r2_v44 : R2 m' c (Proc.devRef .tc Cert.ReferenceIdeal.main_v44) = W5 m ρ c (Proc.devRef .tc main_v42) :=
  (stage2 (R1 m' c) _ _ (r1_v40 m ρ m' c h0 h1 h2 h3 h4 h5 h6) (r1_arg4 m ρ m' c h0 h1 h2 h3 h4 h5 h6)).trans (k5_v42 m ρ m' c h0 h1 h2 h3 h4 h5 h6).symm

/-! ## Region 2 and stage 3: the second product -/

/-- What the kernel's program carries from its start through region 0, the second host stretch and region 1. -/
theorem k5_v1 : W5 m ρ c (Proc.devRef .tc main_v1) = W2 m ρ c (Proc.devRef .tc main_v1) :=
  ((W5_of_ne m ρ c main_v1 (by decide)).trans (host1_v1 (W3 m ρ c))).trans (k3_v1 m ρ m' c h0 h1 h2 h3 h4 h5 h6)
theorem k5_v3 : W5 m ρ c (Proc.devRef .tc main_v3) = W2 m ρ c (Proc.devRef .tc main_v3) :=
  ((W5_of_ne m ρ c main_v3 (by decide)).trans (host1_v3 (W3 m ρ c))).trans (k3_v3 m ρ m' c h0 h1 h2 h3 h4 h5 h6)
theorem k5_v10 : W5 m ρ c (Proc.devRef .tc main_v10) = W2 m ρ c (Proc.devRef .tc main_v10) :=
  ((W5_of_ne m ρ c main_v10 (by decide)).trans (host1_v10 (W3 m ρ c))).trans (k3_v10 m ρ m' c h0 h1 h2 h3 h4 h5 h6)
theorem k5_arg2 : W5 m ρ c (Proc.devRef .tc main_arg2) = W2 m ρ c (Proc.devRef .tc main_arg2) :=
  ((W5_of_ne m ρ c main_arg2 (by decide)).trans (host1_arg2 (W3 m ρ c))).trans (k3_arg2 m ρ m' c h0 h1 h2 h3 h4 h5 h6)
theorem k5_arg5 : W5 m ρ c (Proc.devRef .tc main_arg5) = W2 m ρ c (Proc.devRef .tc main_arg5) :=
  ((W5_of_ne m ρ c main_arg5 (by decide)).trans (host1_arg5 (W3 m ρ c))).trans (k3_arg5 m ρ m' c h0 h1 h2 h3 h4 h5 h6)
theorem k5_arg6 : W5 m ρ c (Proc.devRef .tc main_arg6) = W2 m ρ c (Proc.devRef .tc main_arg6) :=
  ((W5_of_ne m ρ c main_arg6 (by decide)).trans (host1_arg6 (W3 m ρ c))).trans (k3_arg6 m ρ m' c h0 h1 h2 h3 h4 h5 h6)

theorem k6_v43 : W6 m ρ c (Proc.devRef .tc main_v43) = G2 (W5 m ρ c (Proc.devRef .tc main_v42)) (W5 m ρ c (Proc.devRef .tc main_arg5)) :=
  (W6_arr m ρ c 2).trans (final2 (V5 m ρ) c)

theorem r2_arg5 : R2 m' c (Proc.devRef .tc Cert.ReferenceIdeal.main_arg5) = W5 m ρ c (Proc.devRef .tc main_arg5) :=
  (((s2_arg5 (R1 m' c)).trans (s1_arg5 (R0 m' c))).trans (r0_arg5 m ρ m' c h0 h1 h2 h3 h4 h5 h6)).trans (k5_arg5 m ρ m' c h0 h1 h2 h3 h4 h5 h6).symm

theorem r3_v45 : R3 m' c (Proc.devRef .tc Cert.ReferenceIdeal.main_v45) = W6 m ρ c (Proc.devRef .tc main_v43) :=
  (stage3 (R2 m' c) _ _ (r2_v44 m ρ m' c h0 h1 h2 h3 h4 h5 h6) (r2_arg5 m ρ m' c h0 h1 h2 h3 h4 h5 h6)).trans (k6_v43 m ρ m' c h0 h1 h2 h3 h4 h5 h6).symm

/-! ## Stage 4: the inverse square root again, and the second aggregation -/

/-- What the reference carries from its first stretch to its fourth. -/
theorem r3_v1 : R3 m' c (Proc.devRef .tc Cert.ReferenceIdeal.main_v1) = W2 m ρ c (Proc.devRef .tc main_v1) :=
  (((s3_v1 (R2 m' c)).trans (s2_v1 (R1 m' c))).trans (s1_v1 (R0 m' c))).trans (r0_v1 m ρ m' c h0 h1 h2 h3 h4 h5 h6)
theorem r3_v3 : R3 m' c (Proc.devRef .tc Cert.ReferenceIdeal.main_v3) = W2 m ρ c (Proc.devRef .tc main_v3) :=
  (((s3_v3 (R2 m' c)).trans (s2_v3 (R1 m' c))).trans (s1_v3 (R0 m' c))).trans (r0_v3 m ρ m' c h0 h1 h2 h3 h4 h5 h6)
theorem r3_arg2 : R3 m' c (Proc.devRef .tc Cert.ReferenceIdeal.main_arg2) = W2 m ρ c (Proc.devRef .tc main_arg2) :=
  (((s3_arg2 (R2 m' c)).trans (s2_arg2 (R1 m' c))).trans (s1_arg2 (R0 m' c))).trans (r0_arg2 m ρ m' c h0 h1 h2 h3 h4 h5 h6)
theorem r3_arg6 : R3 m' c (Proc.devRef .tc Cert.ReferenceIdeal.main_arg6) = W2 m ρ c (Proc.devRef .tc main_arg6) :=
  (((s3_arg6 (R2 m' c)).trans (s2_arg6 (R1 m' c))).trans (s1_arg6 (R0 m' c))).trans (r0_arg6 m ρ m' c h0 h1 h2 h3 h4 h5 h6)

theorem r4a_dinv : R4a m' c (Proc.devRef .tc Cert.ReferenceIdeal.main_v52) = W2 m ρ c (Proc.devRef .tc main_v10) :=
  stage4a (R3 m' c) (W0 m ρ c) (r3_v3 m ρ m' c h0 h1 h2 h3 h4 h5 h6)
    ((r3_arg2 m ρ m' c h0 h1 h2 h3 h4 h5 h6).trans (host0_arg2 (W0 m ρ c)))

/-- What the kernel's program carries on through region 2. -/
theorem k6_v1 : W6 m ρ c (Proc.devRef .tc main_v1) = W2 m ρ c (Proc.devRef .tc main_v1) := (W6_of_ne m ρ c main_v1 (by decide)).trans (k5_v1 m ρ m' c h0 h1 h2 h3 h4 h5 h6)
theorem k6_v3 : W6 m ρ c (Proc.devRef .tc main_v3) = W2 m ρ c (Proc.devRef .tc main_v3) := (W6_of_ne m ρ c main_v3 (by decide)).trans (k5_v3 m ρ m' c h0 h1 h2 h3 h4 h5 h6)
theorem k6_v10 : W6 m ρ c (Proc.devRef .tc main_v10) = W2 m ρ c (Proc.devRef .tc main_v10) := (W6_of_ne m ρ c main_v10 (by decide)).trans (k5_v10 m ρ m' c h0 h1 h2 h3 h4 h5 h6)
theorem k6_arg2 : W6 m ρ c (Proc.devRef .tc main_arg2) = W2 m ρ c (Proc.devRef .tc main_arg2) := (W6_of_ne m ρ c main_arg2 (by decide)).trans (k5_arg2 m ρ m' c h0 h1 h2 h3 h4 h5 h6)
theorem k6_arg6 : W6 m ρ c (Proc.devRef .tc main_arg6) = W2 m ρ c (Proc.devRef .tc main_arg6) := (W6_of_ne m ρ c main_arg6 (by decide)).trans (k5_arg6 m ρ m' c h0 h1 h2 h3 h4 h5 h6)

theorem r4b_v81 : R4b m' c (Proc.devRef .tc Cert.ReferenceIdeal.main_v81) = W7 m ρ c (Proc.devRef .tc main_v72) :=
  stage4b (R4a m' c) (W6 m ρ c)
    (((s4a_v1 (R3 m' c)).trans (r3_v1 m ρ m' c h0 h1 h2 h3 h4 h5 h6)).trans (k6_v1 m ρ m' c h0 h1 h2 h3 h4 h5 h6).symm)
    (((s4a_v3 (R3 m' c)).trans (r3_v3 m ρ m' c h0 h1 h2 h3 h4 h5 h6)).trans (k6_v3 m ρ m' c h0 h1 h2 h3 h4 h5 h6).symm)
    ((r4a_dinv m ρ m' c h0 h1 h2 h3 h4 h5 h6).trans (k6_v10 m ρ m' c h0 h1 h2 h3 h4 h5 h6).symm)
    (((s4a_arg2 (R3 m' c)).trans (r3_arg2 m ρ m' c h0 h1 h2 h3 h4 h5 h6)).trans (k6_arg2 m ρ m' c h0 h1 h2 h3 h4 h5 h6).symm)
    ((s4a_v45 (R3 m' c)).trans (r3_v45 m ρ m' c h0 h1 h2 h3 h4 h5 h6))

/-! ## Region 3 and stages 5, 6: the second bias and the log-softmax -/

theorem k8_v74 : W8 m ρ c (Proc.devRef .tc main_v74) = G3 (W7 m ρ c (Proc.devRef .tc main_v72)) (W6 m ρ c (Proc.devRef .tc main_arg6)) :=
  (W8_arr m ρ c 2).trans (final3 (V7 m ρ) c (W6 m ρ c (Proc.devRef .tc main_arg6)) (host3_bias (W6 m ρ c)))

theorem r4b_arg6 : R4b m' c (Proc.devRef .tc Cert.ReferenceIdeal.main_arg6) = W6 m ρ c (Proc.devRef .tc main_arg6) :=
  (((s4b_arg6 (R4a m' c)).trans (s4a_arg6 (R3 m' c))).trans (r3_arg6 m ρ m' c h0 h1 h2 h3 h4 h5 h6)).trans (k6_arg6 m ρ m' c h0 h1 h2 h3 h4 h5 h6).symm

/-- The reference's result is the kernel's. -/
theorem result_eq : after (Cert.ReferenceIdeal.ValueP.ops (F := Ideal)) (launchContents m' c) (Proc.devRef .tc Cert.ReferenceIdeal.main_v85) = W8 m ρ c (Proc.devRef .tc main_v74) := by
  rw [refFold m' c]
  refine (stage6 (R5 m' c) _ (stage5 (R4b m' c) _ _ (r4b_v81 m ρ m' c h0 h1 h2 h3 h4 h5 h6) (r4b_arg6 m ρ m' c h0 h1 h2 h3 h4 h5 h6))).trans ?_
  exact (k8_v74 m ρ m' c h0 h1 h2 h3 h4 h5 h6).symm

end

end Cert.Bridge

end
-- ==== Proof.lean ====
/-
  The certificate of a two-layer graph convolution followed by a row-wise log-softmax: a kernel of four pipelined regions
  (two dense products on the matrix unit, a bias-and-rectify pass, a bias-and-log-softmax pass) among host gathers and
  accumulating scatters, against a plain host reference.

  Frames. The two kernel programs' frames are their frame certificates. The reference is straight-line host code; its run
  leaves every buffer at the fold of its operations over the launch contents, and no operation writes an argument.

  Preservation. The ideal pass rewrote nothing: the idealized kernel is the kernel's own text read at the extended reals.

  Equality at the extended reals. Both programs compute, from the node features x, the edge list (row, col), the edge
  weights w, and the two layers' weights and biases:
      dinv[n]  = deg[n] > 0 ? deg[n]^(-1/2) : 0,   deg[n] = Σ_{e : col e = n} w_e,
      coef_e   = dinv[row e] · w_e · dinv[col e],
      h1       = max(Agg(x·W1) + b1, 0),           Agg(h)[n] = Σ_{e : col e = n} coef_e · h[row e],
      out      = logsoftmax_rows(Agg(h1·W2) + b2).
  The host parts (slices, gathers, the accumulating scatters, the products by coef) are the same operations in the same
  order in both programs, so they agree whenever their operands do. The four regions each equal the reference's
  whole-array form: a block product into a zero accumulator is the corresponding rows of the one whole product (the
  rounding of the operands to bf16 is the identity at the extended reals); the bias row added down a block's rows and the
  maximum with zero is the bias vector laid along the array's rows, added, maximum with zero; and the log-softmax is row
  by row the same function of a row (the reference's extra maximum with −∞ changes nothing, its sums start from 0). No
  finiteness of the inputs is used anywhere: the precondition is never opened.
-/
import proofs.«126643_j78889959292957_1_alg».proof.Defs
import proofs.«126643_j78889959292957_1_alg».proof.Proof.Gen.Kernel
import proofs.«126643_j78889959292957_1_alg».proof.Proof.Gen.Kernel.Skeleton
import proofs.«126643_j78889959292957_1_alg».proof.Proof.Gen.Kernel.Launch
import proofs.«126643_j78889959292957_1_alg».proof.Proof.Gen.Kernel.Points
import proofs.«126643_j78889959292957_1_alg».proof.Proof.Gen.Kernel.Frame
import proofs.«126643_j78889959292957_1_alg».proof.Proof.Gen.KernelIdeal
import proofs.«126643_j78889959292957_1_alg».proof.Proof.Gen.KernelIdeal.Skeleton
import proofs.«126643_j78889959292957_1_alg».proof.Proof.Gen.KernelIdeal.Launch
import proofs.«126643_j78889959292957_1_alg».proof.Proof.Gen.KernelIdeal.Points
import proofs.«126643_j78889959292957_1_alg».proof.Proof.Gen.KernelIdeal.Frame
import proofs.«126643_j78889959292957_1_alg».proof.Proof.Gen.ReferenceIdeal
import proofs.«126643_j78889959292957_1_alg».proof.Proof.Gen.Pre_finite_inputs
import proofs.«126643_j78889959292957_1_alg».proof.Proof.KernelRun
import proofs.«126643_j78889959292957_1_alg».proof.Proof.RefOps
import proofs.«126643_j78889959292957_1_alg».proof.Proof.RefFrame
import proofs.«126643_j78889959292957_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference runs, and each argument ends at the fold of the operations over its launch contents: itself. -/
theorem frame_referenceIdeal : Cert.frame_ReferenceIdeal := fun m ρ _ =>
  (θ_run Cert.ReferenceIdeal.defs _ _).mono (fun _ h c =>
    ⟨(h c _).trans (Cert.ReferenceIdeal.Kept.arg0 _), (h c _).trans (Cert.ReferenceIdeal.Kept.arg1 _),
     (h c _).trans (Cert.ReferenceIdeal.Kept.arg2 _), (h c _).trans (Cert.ReferenceIdeal.Kept.arg3 _),
     (h c _).trans (Cert.ReferenceIdeal.Kept.arg4 _), (h c _).trans (Cert.ReferenceIdeal.Kept.arg5 _),
     (h c _).trans (Cert.ReferenceIdeal.Kept.arg6 _)⟩)
    (Cert.ReferenceIdeal.ValueP.run (F := Ideal) m ρ)

/-- The ideal pass's ledger is empty. -/
theorem preserves : Cert.preserves_Kernel_KernelIdeal := trivial

/-- Both runs end with one result: the kernel's result array at its last boundary's contents, which is the fold of the
    reference's operations over launch contents that agree on the arguments. -/
theorem algebraic : Cert.algebraic_KernelIdeal_ReferenceIdeal := by
  intro m ρ m' ρ' _ hagree
  refine ⟨fun c => Cert.KernelIdeal.Gen.W8 m ρ c (Proc.devRef .tc Cert.KernelIdeal.main_v74), Cert.KernelIdeal.Hand.run (F := Ideal) m ρ, ?_⟩
  refine (θ_run Cert.ReferenceIdeal.defs _ _).mono (fun _ h c => ?_) (Cert.ReferenceIdeal.ValueP.run (F := Ideal) m' ρ')
  obtain ⟨h0, h1, h2, h3, h4, h5, h6⟩ := hagree c
  exact ⟨(h c _).trans (Cert.Bridge.result_eq m ρ m' c h0 h1 h2 h3 h4 h5 h6),
    (h c _).trans (Cert.ReferenceIdeal.Kept.arg0 _), (h c _).trans (Cert.ReferenceIdeal.Kept.arg1 _),
    (h c _).trans (Cert.ReferenceIdeal.Kept.arg2 _), (h c _).trans (Cert.ReferenceIdeal.Kept.arg3 _),
    (h c _).trans (Cert.ReferenceIdeal.Kept.arg4 _), (h c _).trans (Cert.ReferenceIdeal.Kept.arg5 _),
    (h c _).trans (Cert.ReferenceIdeal.Kept.arg6 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
